-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_tau" .f32 0x3FA00000#32 ((16777216 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  bcast_S_S8192 : S_.BroadcastsInDim S8192 (![] : Fin 0 → Fin S8192.rank)
  reducesTo_S8192_S_d0 : S8192.ReducesTo [0] S_
  dot_S8192x512_S512x512_S8192x512_1_0_0_1_n_n_wf : DotDims.WF S8192x512 S512x512 S8192x512 [1] [0] [0] [1] [] []

variable [Facts]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def fn_part2 {F : FTy → Type} [FloatOps F] (main_arg1 : FVec F S8192x512 .f32) (main_arg4 : FVec F S512x512 .f32) (main_arg5 : FVec F S512 .f32) (main_v28 : IVec S_ 1) (main_v34 : FVec F S8192x512 .f32) (main_cst_10 : FVec F S_ .f32) : IVec S_ 1 :=
  let main_v35 : FVec F S8192 .f32 := (fun x v => Host.reduceAdd x v reducesTo_S8192x512_S8192_d1 h_S_) main_v34 main_cst_10
  let main_cst_11 : FVec F S_ .f32 := constant S_ .f32 0x00000000#32
  let main_v36 : FVec F S8192 .f32 := broadcastInDim S8192 ![] bcast_S_S8192 main_cst_11
  let main_v37 : IVec S8192 1 := cmpf .ogt main_v35 main_v36
  let main_c_12 : IVec S_ 1 := constantI S_ 1 1#1
  let main_v38 : IVec S_ 1 := (fun x v => Host.reduce IntOp.andi x v reducesTo_S8192_S_d0 h_S_) main_v37 main_c_12
  let main_v39 : IVec S_ 1 := andi main_v28 main_v38
  let main_v40 : FVec F S512x512 .f32 := (transpose S512x512 [1, 0] · transposes_S512x512_S512x512_1_0) main_arg4
  let main_v41 : FVec F S8192x512 .f32 := (fun l r => Host.dotGeneral dot_S8192x512_S512x512_S8192x512_1_0_0_1_n_n none l r) main_arg1 main_v40
  let main_v42 : FVec F S1x512 .f32 := broadcastInDim S1x512 ![1] bcast_S512_S1x512_1 main_arg5
  let main_v43 : FVec F S8192x512 .f32 := broadcastInDim S8192x512 ![0, 1] bcast_S1x512_S8192x512_0_1 main_v42
  let main_v44 : FVec F S8192x512 .f32 := addf main_v41 main_v43
  let main_v45 : FVec F S8192x512 .f32 := mulf main_v44 main_v44
  let main_cst_13 : FVec F S_ .f32 := constant S_ .f32 0x00000000#32
  let main_v46 : FVec F S8192 .f32 := (fun x v => Host.reduceAdd x v reducesTo_S8192x512_S8192_d1 h_S_) main_v45 main_cst_13
  let main_cst_14 : FVec F S_ .f32 := constant S_ .f32 0x00000000#32
  let main_v47 : FVec F S8192 .f32 := broadcastInDim S8192 ![] bcast_S_S8192 main_cst_14
  let main_v48 : IVec S8192 1 := cmpf .ogt main_v46 main_v47
  let main_c_15 : IVec S_ 1 := constantI S_ 1 1#1
  let main_v49 : IVec S_ 1 := (fun x v => Host.reduce IntOp.andi x v reducesTo_S8192_S_d0 h_S_) main_v48 main_c_15
  let main_v50 : IVec S_ 1 := andi main_v39 main_v49
  main_v50

def fn_part1 {F : FTy → Type} [FloatOps F] (main_arg0 : FVec F S8192x512 .f32) (main_arg1 : FVec F S8192x512 .f32) (main_arg4 : FVec F S512x512 .f32) (main_arg5 : FVec F S512 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := (transpose S512x512 [1, 0] · transposes_S512x512_S512x512_1_0) main_arg4
  let main_v30 : FVec F S8192x512 .f32 := (fun l r => Host.dotGeneral dot_S8192x512_S512x512_S8192x512_1_0_0_1_n_n none l r) main_arg0 main_v29
  let main_v31 : FVec F S1x512 .f32 := broadcastInDim S1x512 ![1] bcast_S512_S1x512_1 main_arg5
  let main_v32 : FVec F S8192x512 .f32 := broadcastInDim S8192x512 ![0, 1] bcast_S1x512_S8192x512_0_1 main_v31
  let main_v33 : FVec F S8192x512 .f32 := addf main_v30 main_v32
  let main_v34 : FVec F S8192x512 .f32 := mulf main_v33 main_v33
  let main_cst_10 : FVec F S_ .f32 := constant S_ .f32 0x00000000#32
  fn_part2 (F := F) main_arg1 main_arg4 main_arg5 main_v28 main_v34 main_cst_10

def fn {F : FTy → Type} [FloatOps F] (main_arg0 : FVec F S8192x512 .f32) (main_arg1 : FVec F S8192x512 .f32) (main_arg2 : FVec F S8192x8192 .f32) (main_arg3 : FVec F S8192x8192 .f32) (main_arg4 : FVec F S512x512 .f32) (main_arg5 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg0 main_arg1 main_arg4 main_arg5 main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S8192x128 : Shape := ⟨2, ![8192, 128]⟩
abbrev S1024x1024 : Shape := ⟨2, ![1024, 1024]⟩
abbrev S1024x128 : Shape := ⟨2, ![1024, 128]⟩
abbrev S512x1024 : Shape := ⟨2, ![512, 1024]⟩
abbrev S_ : Shape := ⟨0, ![]⟩

abbrev nBuf : Space → Nat
  | .hbm => 23
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S1x512, .f32⟩
  | .hbm, ⟨7, _⟩ => ⟨S8192x512, .bf16⟩
  | .hbm, ⟨8, _⟩ => ⟨S8192x512, .bf16⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S512_S1x512 : S512.ShapeCasts S1x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  transposes_S512x512_p1_0_S512x512 : S512x512.Transposes [1, 0] S512x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x512 : S1024x1.Broadcasts S1024x512
  packedbf16_S1024x512_S1024x512_0_0 : (Rect.unit (s := S1024x512) ![0, 0] S1024x512.size inb_S1024x512_S1024x512_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024x128_S1024x128 : S1024x128.ShapeCasts S1024x128
  shapeCasts_S1024x1_S1024x1 : S1024x1.ShapeCasts S1024x1
  broadcasts_S1024x1_S1024x128 : S1024x1.Broadcasts S1024x128
  reducesTo_S8192x128_S_d0_1 : S8192x128.ReducesTo [0, 1] S_
  h_S_ : 0 < S_.numel
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x512.size a
  hwx0_4 : ∀ i : grid0.Coords, EltTy.bits .bf16 = 32 ∨ (Rect.block (s := S8192x512) S1024x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .bf16 = 32 ∨ (Rect.block (s := S8192x512) S1024x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S8192x128.size a
  hwx1_5 : ∀ i : grid1.Coords, EltTy.bits .f32 = 32 ∨ (Rect.block (s := S8192x128) S1024x128.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1024x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512x8192 : Shape := ⟨2, ![512, 8192]⟩
abbrev S1x8192 : Shape := ⟨2, ![1, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S8192x512, .f32⟩
  | .hbm, ⟨8, _⟩ => ⟨S1x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .i1⟩
  | .hbm, ⟨14, _⟩ => ⟨S_, .f32⟩
  | .hbm, ⟨15, _⟩ => ⟨S8192x512, .f32⟩
  | .hbm, ⟨16, _⟩ => ⟨S8192x512, .i1⟩
  | .hbm, ⟨17, _⟩ => ⟨S_, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S512x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .i1⟩
  | .hbm, ⟨34, _⟩ => ⟨S_, .f32⟩
  | .hbm, ⟨35, _⟩ => ⟨S8192x512, .f32⟩
  | .hbm, ⟨36, _⟩ => ⟨S8192x512, .i1⟩
  | .hbm, ⟨37, _⟩ => ⟨S_, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S512x8192, .f32⟩
  | .hbm, ⟨57, _⟩ => ⟨S8192x8192, .f32⟩
  | .hbm, ⟨58, _⟩ => ⟨S1x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_cst_1 : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_v4 : Ref sig .tc := ⟨.hbm, 20, rfl⟩
abbrev main_call0_v5 : Ref sig .tc := ⟨.hbm, 21, rfl⟩
abbrev main_call0_cst_2 : Ref sig .tc := ⟨.hbm, 22, rfl⟩
abbrev main_call0_v6 : Ref sig .tc := ⟨.hbm, 23, rfl⟩
abbrev main_call0_v7 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_call1_v1 : Ref sig .tc := ⟨.hbm, 33, rfl⟩
abbrev main_call1_cst_0 : Ref sig .tc := ⟨.hbm, 34, rfl⟩
abbrev main_call1_v2 : Ref sig .tc := ⟨.hbm, 35, rfl⟩
abbrev main_call1_v3 : Ref sig .tc := ⟨.hbm, 36, rfl⟩
abbrev main_call1_cst_1 : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_v4 : Ref sig .tc := ⟨.hbm, 40, rfl⟩
abbrev main_call1_v5 : Ref sig .tc := ⟨.hbm, 41, rfl⟩
abbrev main_call1_cst_2 : Ref sig .tc := ⟨.hbm, 42, rfl⟩
abbrev main_call1_v6 : Ref sig .tc := ⟨.hbm, 43, rfl⟩
abbrev main_call1_v7 : Ref sig .tc := ⟨.hbm, 44, rfl⟩
abbrev main_v11 : Ref sig .tc := ⟨.hbm, 45, rfl⟩
abbrev main_call2_v0 : Ref sig .tc := ⟨.hbm, 46, rfl⟩
abbrev main_call2_cst : Ref sig .tc := ⟨.hbm, 47, rfl⟩
abbrev main_call2_v1 : Ref sig .tc := ⟨.hbm, 48, rfl⟩
abbrev main_call2_v2 : Ref sig .tc := ⟨.hbm, 49, rfl⟩
abbrev main_v12 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst_0 : Ref sig .tc := ⟨.hbm, 67, rfl⟩
abbrev main_v24 : Ref sig .tc := ⟨.hbm, 68, rfl⟩
abbrev main_v25 : Ref sig .tc := ⟨.hbm, 69, rfl⟩
abbrev main_cst_1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x512_S512x8192_1_0 : S8192x512.Transposes [1, 0] S512x8192
  transposes_S8192x1_S1x8192_1_0 : S8192x1.Transposes [1, 0] S1x8192
  bcast_S_S8192x8192 : S_.BroadcastsInDim S8192x8192 (![] : Fin 0 → Fin S8192x8192.rank)
  reducesTo_S8192x8192_S_d0_1 : S8192x8192.ReducesTo [0, 1] S_
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x1_S1x8192_S8192x8192_1_0_0_1_n_n_wf : DotDims.WF S8192x1 S1x8192 S8192x8192 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.NamedRun.lean ====
/-
  The idealized kernel's run with its result named. Every weakly fair execution of the kernel's host program ends, without a
  fault, with the six argument arrays as launched and with the result buffer at the last boundary's contents: the launch
  memory carried through the first host stretch (the bias reshaped to a row), the two regions (each region's arrays at
  what its write-backs leave, every other buffer as it was) and the last host stretch (the two sums, the divisions, the
  logarithm and the negation). The argument is the one that shows the arguments unchanged — the run's segments chained from
  the launch, the last thread state read against the final memory — read at one more buffer, the result's.
-/
import proofs.«150668_j60876866454165_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result buffer at the contents the last host stretch leaves, and the arguments as launched. -/
theorem run_named : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Named

end
-- ==== Proof.Spec.lean ====
/-
  The mathematics both programs compute, stated once over the extended reals, index by index.

  For a view x (8192 rows of 512 features), a weight matrix W (512 x 512) and a bias b (512 entries):
    lin  x W b i k = sum_c x[i,c] * W[k,c] + b[k]          the projection x W^T + b
    elu  y         = y for 0 < y, exp y - 1 otherwise      (both programs' spellings of ELU reduce to this on every
                                                            extended real: min y 0 = y and the inner select is y when not 0 < y)
    act  x W b i k = elu (lin x W b i k)
    nrm  x W b i   = sqrt (sum_k act[i,k]^2)               the row's Euclidean norm
  The kernel first normalises the rows, zhat[i,k] = act[i,k] / nrm[i], multiplies the cosine of rows i (first view) and j
  (second view) by a constant and exponentiates; it then sums exp(...) * pos and exp(...) * neg over j row by row, into
  128 equal lanes, sums everything, divides by 128, and returns -log (P / (P + N)).
  The reference divides the dot product of the un-normalised rows by the product of the two norms and by the
  temperature, exponentiates, and returns -log (sum(s * pos) / sum(s * pos + s * neg)).
-/
import Idealize.ShloMosaic.PureOps.Ideal
import Idealize.ShloMosaic.Lib.ValueIdx

noncomputable section

open scoped BigOperators

namespace Cert.Spec

open Idealize.ShloMosaic Idealize.ShloMosaic.ValueIdx

abbrev Sx : Shape := ⟨2, ![8192, 512]⟩
abbrev Sw : Shape := ⟨2, ![512, 512]⟩
abbrev Sm : Shape := ⟨2, ![8192, 8192]⟩
abbrev Sacc : Shape := ⟨2, ![8192, 128]⟩

/-- The projection x W^T + b at row i, feature k. -/
def lin (x : Sx.Idx → EReal) (W : Sw.Idx → EReal) (b : Fin 512 → EReal) (i : Fin 8192) (k : Fin 512) : EReal :=
  (∑ c : Fin 512, x (ix2 i c) * W (ix2 k c)) + b k

/-- ELU on the extended reals. -/
def elu (y : EReal) : EReal := if 0 < y then y else Ideal.exp y - 1

/-- The activated projection. -/
def act (x : Sx.Idx → EReal) (W : Sw.Idx → EReal) (b : Fin 512 → EReal) (i : Fin 8192) (k : Fin 512) : EReal :=
  elu (lin x W b i k)

/-- The sum of squares of row i of the activated projection. -/
def sq (x : Sx.Idx → EReal) (W : Sw.Idx → EReal) (b : Fin 512 → EReal) (i : Fin 8192) : EReal :=
  ∑ k : Fin 512, act x W b i k * act x W b i k

/-- The Euclidean norm of row i of the activated projection. -/
def nrm (x : Sx.Idx → EReal) (W : Sw.Idx → EReal) (b : Fin 512 → EReal) (i : Fin 8192) : EReal :=
  Ideal.sqrt (sq x W b i)

/-- The kernel's first stage: the activated projection with every row divided by its norm. -/
def zhat (x : Sx.Idx → EReal) (W : Sw.Idx → EReal) (b : Fin 512 → EReal) (i : Fin 8192) (k : Fin 512) : EReal :=
  Ideal.div (act x W b i k) (nrm x W b i)

/-- The same as an array. -/
def zhatArr (x : Sx.Idx → EReal) (W : Sw.Idx → EReal) (b : Fin 512 → EReal) : Sx.Idx → EReal :=
  fun idx => zhat x W b (idx 0) (idx 1)

/-- The kernel's similarity of row i of z1 and row j of z2: exp of their dot product times a constant. -/
def simK (z1 z2 : Sx.Idx → EReal) (kap : EReal) (i j : Fin 8192) : EReal :=
  Ideal.exp ((∑ k : Fin 512, z1 (ix2 i k) * z2 (ix2 j k)) * kap)

/-- The kernel's second stage, one row: the similarities of row i weighted by row i of a mask p, summed over j. -/
def rowAcc (z1 z2 : Sx.Idx → EReal) (kap : EReal) (p : Sm.Idx → EReal) (i : Fin 8192) : EReal :=
  ∑ j : Fin 8192, simK z1 z2 kap i j * p (ix2 i j)

/-- The kernel's host tail: an accumulator array summed over all its entries and divided by c128. -/
def total (acc : Sacc.Idx → EReal) (c128 : EReal) : EReal :=
  Ideal.div (∑ idx : Sacc.Idx, acc idx) c128

/-- The kernel's result from its two accumulator arrays. -/
def kernelResult (accP accN : Sacc.Idx → EReal) (c128 : EReal) : EReal :=
  -Ideal.log (Ideal.div (total accP c128) (total accP c128 + total accN c128))

/-- The reference's similarity: the dot product of the activated rows over the product of their norms, over the
    temperature D, exponentiated. -/
def simR (x1 x2 : Sx.Idx → EReal) (W : Sw.Idx → EReal) (b : Fin 512 → EReal) (D : EReal) (i j : Fin 8192) : EReal :=
  Ideal.exp (Ideal.div (Ideal.div (∑ k : Fin 512, act x1 W b i k * act x2 W b j k) (nrm x1 W b i * nrm x2 W b j)) D)

/-- The reference's result. -/
def refResult (x1 x2 : Sx.Idx → EReal) (p q : Sm.Idx → EReal) (W : Sw.Idx → EReal) (b : Fin 512 → EReal) (D : EReal) : EReal :=
  -Ideal.log (Ideal.div (∑ i : Fin 8192, ∑ j : Fin 8192, simR x1 x2 W b D i j * p (ix2 i j))
    (∑ i : Fin 8192, ∑ j : Fin 8192, (simR x1 x2 W b D i j * p (ix2 i j) + simR x1 x2 W b D i j * q (ix2 i j))))

end Cert.Spec

end
-- ==== Proof.HostTail.lean ====
/-
  The kernel's host tail, read. After the second region the host sums each of the two accumulator arrays over all their
  entries (from the zero word, which is 0), divides each sum by the word 128, and returns the negated logarithm of the first
  quotient over the sum of the two: the result buffer at the last boundary is that function of the two accumulator arrays
  as the second region leaves them.
-/
import proofs.«150668_j60876866454165_2_alg».proof.Proof.Gen.KernelIdeal.Frame
import proofs.«150668_j60876866454165_2_alg».proof.Proof.Spec
import Idealize.ShloMosaic.PureOps.Ideal.Laws
import Idealize.ShloMosaic.Lib.StableHlo.Run

set_option maxRecDepth 16384

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The result buffer after the last host stretch is `-log (P / (P + N))` with `P`, `N` the two accumulator arrays'
    total sums over the word 128. -/
theorem result (c : Dev nD) :
    (W4 (F := Ideal) m ρ c (Proc.devRef .tc main_v10) : S_.Idx → EReal)
      = fun _ => Cert.Spec.kernelResult (W3 (F := Ideal) m ρ c (Proc.devRef .tc main_v2_0))
          (W3 (F := Ideal) m ρ c (Proc.devRef .tc main_v2_1)) (Ideal.ofBits .f32 0x43000000#32) := by
  show StableHlo.after hostOps2 (W3 (F := Ideal) m ρ c) (Proc.devRef .tc main_v10) = _
  generalize W3 (F := Ideal) m ρ c = Wv
  after_results
  funext j
  simp only [Host.negf, Host.log, Host.divf, addf, Host.reduceAdd, constant,
    Ideal.hostNegf_def, Ideal.negf_def, Ideal.hostUnary_log_def, Ideal.hostDivf_def, Ideal.addf_def,
    Ideal.hostReduceAdd_def, Ideal.ofBits_def, Ideal.ofBits_zero_f32, Cert.Spec.kernelResult, Cert.Spec.total]
  have total : ∀ (h : S8192x128.ReducesTo [0, 1] S_) (x : S8192x128.Idx → EReal),
      Ideal.hostReduceAdd h x 0 j = ∑ idx : S8192x128.Idx, x idx := fun h x => by
    rw [Ideal.hostReduceAdd_total (t := S_) h (fun b => b.elim0), zero_add]
  rw [total, total]

end Cert.KernelIdeal.Tail

end
-- ==== Proof.Through.lean ====
/-
  What each stage of the kernel's program finds in the buffers it reads. The host result is computed from the two
  accumulator arrays as the second region's write-backs leave them; the second region reads the two normalised
  projections as the first region's write-backs leave them, and the two masks as launched; the first region reads the two
  views and the weights as launched and the bias as the first host operation reshapes it, a row whose entry (0, k) is the
  bias's entry k.
-/
import proofs.«150668_j60876866454165_2_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.KernelIdeal.Through

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The accumulator for the first mask, after the second region, is what the region's write-backs leave. -/
theorem acc_pos (c : Dev nD) : W3 (F := Ideal) m ρ c (Proc.devRef .tc main_v2_0) = (dat1 (V2 (F := Ideal) m ρ) c).arrAt 4 cfg1.N :=
  W3_arr m ρ c 4
/-- The accumulator for the second mask likewise. -/
theorem acc_neg (c : Dev nD) : W3 (F := Ideal) m ρ c (Proc.devRef .tc main_v2_1) = (dat1 (V2 (F := Ideal) m ρ) c).arrAt 5 cfg1.N :=
  W3_arr m ρ c 5
/-- The second region finds the first normalised projection as the first region's write-backs leave it. -/
theorem V2_z1 (c : Dev nD) : V2 (F := Ideal) m ρ c main_v1_0 = (dat0 (V1 (F := Ideal) m ρ) c).arrAt 4 cfg0.N :=
  W2_arr m ρ c 4
/-- The second likewise. -/
theorem V2_z2 (c : Dev nD) : V2 (F := Ideal) m ρ c main_v1_1 = (dat0 (V1 (F := Ideal) m ρ) c).arrAt 5 cfg0.N :=
  W2_arr m ρ c 5
/-- The second region finds argument main_arg2 as launched: it is no array of the first region, and the first host stretch
    does not write it. -/
theorem V2_main_arg2 (c : Dev nD) : V2 (F := Ideal) m ρ c main_arg2 = m ((c : Thread nD τ).loc main_arg2) :=
  calc W2 (F := Ideal) m ρ c (Proc.devRef .tc main_arg2)
    _ = W1 (F := Ideal) m ρ c (Proc.devRef .tc main_arg2) := W2_of_ne m ρ c main_arg2 (by decide)
    _ = W0 (F := Ideal) m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl
/-- The second region finds argument main_arg3 as launched: it is no array of the first region, and the first host stretch
    does not write it. -/
theorem V2_main_arg3 (c : Dev nD) : V2 (F := Ideal) m ρ c main_arg3 = m ((c : Thread nD τ).loc main_arg3) :=
  calc W2 (F := Ideal) m ρ c (Proc.devRef .tc main_arg3)
    _ = W1 (F := Ideal) m ρ c (Proc.devRef .tc main_arg3) := W2_of_ne m ρ c main_arg3 (by decide)
    _ = W0 (F := Ideal) m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl
/-- The first region finds argument main_arg0 as launched: the first host stretch writes only the reshaped bias. -/
theorem V1_main_arg0 (c : Dev nD) : V1 (F := Ideal) m ρ c main_arg0 = m ((c : Thread nD τ).loc main_arg0) :=
  calc W1 (F := Ideal) m ρ c (Proc.devRef .tc main_arg0)
    _ = W0 (F := Ideal) m ρ c (Proc.devRef .tc main_arg0) := StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl
/-- The first region finds argument main_arg1 as launched: the first host stretch writes only the reshaped bias. -/
theorem V1_main_arg1 (c : Dev nD) : V1 (F := Ideal) m ρ c main_arg1 = m ((c : Thread nD τ).loc main_arg1) :=
  calc W1 (F := Ideal) m ρ c (Proc.devRef .tc main_arg1)
    _ = W0 (F := Ideal) m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl
/-- The first region finds argument main_arg4 as launched: the first host stretch writes only the reshaped bias. -/
theorem V1_main_arg4 (c : Dev nD) : V1 (F := Ideal) m ρ c main_arg4 = m ((c : Thread nD τ).loc main_arg4) :=
  calc W1 (F := Ideal) m ρ c (Proc.devRef .tc main_arg4)
    _ = W0 (F := Ideal) m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- The first region finds the bias as a row: entry (0, k) is the launched bias's entry k. -/
theorem V1_bias (c : Dev nD) (k : Fin 512) :
    V1 (F := Ideal) m ρ c main_v0 (ix2 (0 : Fin 1) k) = m ((c : Thread nD τ).loc main_arg5) (ix1 k) := by
  show StableHlo.after hostOps0 (W0 (F := Ideal) m ρ c) (Proc.devRef .tc main_v0) (ix2 (0 : Fin 1) k) = _
  after_results
  exact shapeCast_a_1a_apply _ _ 0 k

end Cert.KernelIdeal.Through

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRealEntries.lean ====
/-
  Real entries inside the extended reals: the predicate "is a coerced real" is closed under the sum,
  difference, product and negation of the extended reals, under finite sums, under sine and cosine,
  under the square root of a non-negative real and under the quotient by a non-zero real; a
  concatenation or a re-indexing of arrays with real entries has real entries.
-/
import Idealize.ShloMosaic.PureOps.Ideal
import Idealize.ShloMosaic.PureOps.Ideal.Laws

noncomputable section

namespace Cert.RealEntries

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsPos.isReal {x : EReal} (h : IsPos x) : IsReal x := by
  obtain ⟨r, _, e⟩ := h
  exact ⟨r, e⟩

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sum {ι : Type*} (s : Finset ι) (f : ι → EReal) (h : ∀ i ∈ s, IsReal (f i)) : IsReal (∑ i ∈ s, f i) :=
  Finset.sum_induction f IsReal (fun _ _ => IsReal.add) isReal_zero h

theorem IsReal.sin {x : EReal} (hx : IsReal x) : IsReal (Ideal.sin x) := by
  obtain ⟨a, rfl⟩ := hx
  exact ⟨Real.sin a, rfl⟩

theorem IsReal.cos {x : EReal} (hx : IsReal x) : IsReal (Ideal.cos x) := by
  obtain ⟨a, rfl⟩ := hx
  exact ⟨Real.cos a, rfl⟩

/-- The square root of a positive real is a positive real. -/
theorem IsPos.sqrt {x : EReal} (hx : IsPos x) : IsPos (Ideal.sqrt x) := by
  obtain ⟨a, ha, rfl⟩ := hx
  refine ⟨Real.sqrt a, Real.sqrt_pos.mpr ha, ?_⟩
  rw [Ideal.sqrt_coe, if_neg (not_lt.mpr ha.le)]

/-- A real divided by a positive real is a real. -/
theorem IsReal.div_pos {x y : EReal} (hx : IsReal x) (hy : IsPos y) : IsReal (Ideal.div x y) := by
  obtain ⟨b, hb, rfl⟩ := hy
  rw [Ideal.div_coe hb.ne']
  exact hx.mul (isReal_coe _)

/-- A sum of squares of reals plus a positive real is a positive real. -/
theorem isPos_sq_sum_add {ι : Type*} (s : Finset ι) (f : ι → EReal) (h : ∀ i ∈ s, IsReal (f i)) {z e : EReal}
    (hz : z = 0) (he : IsPos e) : IsPos ((z + ∑ i ∈ s, f i * f i) + e) := by
  classical
  obtain ⟨ε, hε, rfl⟩ := he
  have hs : ∃ t : ℝ, 0 ≤ t ∧ (∑ i ∈ s, f i * f i) = (t : EReal) := by
    induction s using Finset.induction_on with
    | empty => exact ⟨0, le_refl _, by simp⟩
    | insert a s ha ih =>
      obtain ⟨t, ht, et⟩ := ih (fun i hi => h i (Finset.mem_insert_of_mem hi))
      obtain ⟨r, er⟩ := h a (Finset.mem_insert_self a s)
      refine ⟨r * r + t, add_nonneg (mul_self_nonneg r) ht, ?_⟩
      rw [Finset.sum_insert ha, et, er, ← EReal.coe_mul, ← EReal.coe_add]
  obtain ⟨t, ht, et⟩ := hs
  refine ⟨t + ε, by positivity, ?_⟩
  rw [hz, zero_add, et, ← EReal.coe_add]

/-- The f32 word of `1e-8` denotes a positive real. -/
theorem isPos_eps : IsPos (Ideal.ofBits .f32 0x322BCC77#32) := by
  refine ⟨11258999 * (2 : ℝ) ^ (-50 : ℤ), by positivity, ?_⟩
  simp [Ideal.ofBits, Ideal.ieee, -EReal.coe_mul]

/-- The f32 word of `1.0` denotes `1`. -/
theorem ofBits_one : Ideal.ofBits .f32 0x3F800000#32 = 1 := by
  simp [Ideal.ofBits, Ideal.ieee, -EReal.coe_mul]; norm_num

/-- Every entry of a concatenation is an entry of one of its pieces. -/
theorem concatenate_mem {α : Type} (t : Shape) (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

end Cert.RealEntries

end
-- ==== Proof.Region0Pay.lean ====
/-
  The first region's arithmetic, read at one entry of a block.

  One grid point holds a block of 1024 rows of a view, the whole weight matrix W and the bias row b. With
  y[p,k] = sum_c x[p,c] * W[k,c] + b[k] (the block's rows times W transposed, plus the bias on every row) the body
  forms a[p,k] = y[p,k] where 0 < y[p,k] and exp(min(y[p,k], 0)) - 1 elsewhere, the row norms
  n[p] = sqrt(sum_k a[p,k]^2), and stores a[p,k] / n[p]. Conversions between float widths are the identity on
  the extended reals. This module proves those readings entry by entry:
    * the selection between y and exp(min(y,0)) - 1 is ELU on every extended real (when not 0 < y, min y 0 = y);
    * the product into a zero accumulator, after W is transposed, is the sum over c of x[p,c] * W[k,c];
    * a row sum cast to a column, rooted, and spread back over the row is the row's norm at every entry of the row;
  and concludes that the stored entry (p,k) is the specification's zhat at (r,k) once the block's row p is row r
  of the view.
-/
import proofs.«150668_j60876866454165_2_alg».proof.Proof.Gen.KernelIdeal.Skeleton
import proofs.«150668_j60876866454165_2_alg».proof.Proof.Spec
import proofs.«150668_j60876866454165_2_alg».proof.Proof.LibPlainDot
import proofs.«150668_j60876866454165_2_alg».proof.Proof.LibRowReduce
import proofs.«150668_j60876866454165_2_alg».proof.Proof.LibKeepdims
import proofs.«150668_j60876866454165_2_alg».proof.Proof.LibRealEntries
import Idealize.ShloMosaic.Lib.ValueLayout
import Idealize.ShloMosaic.Lib.Pipeline.Value

noncomputable section

open scoped BigOperators

namespace Cert.KernelIdeal.Region0

open Idealize.ShloMosaic Idealize.ShloMosaic.ValueIdx Cert.KernelIdeal Cert.KernelIdeal.Gen

/-- The body's spelling of ELU — choose y where y > 0, else exp(min(y, 0)) - 1 — is ELU on every extended real:
    where 0 < y fails, min(y, 0) is y. -/
theorem elu_spelling (y : EReal) :
    Scalar.select (Ideal.cmp .ogt y 0) y (Ideal.exp (min y 0) - 1) = Cert.Spec.elu y := by
  unfold Cert.Spec.elu
  by_cases h : 0 < y
  · have e : Ideal.cmp .ogt y 0 = 1#1 := by simp [Ideal.cmp, h]
    rw [e, select_one, if_pos h]
  · have e : Ideal.cmp .ogt y 0 = 0#1 := by simp [Ideal.cmp, h]
    rw [e, select_zero, if_neg h, min_eq_left (not_lt.mp h)]

/-- The block's projection: its rows times W transposed, accumulated from zero, plus the bias row on every row. -/
def linBlk (x2 : Vec Ideal S512x512 .f32) (x3 : Vec Ideal S1x512 .f32) (x0 : Vec Ideal S1024x512 .f32) :
    FVec Ideal S1024x512 .f32 :=
  addf
    (matmul dot_S1024x512_S512x512_S1024x512_1_0_0_1_n_n none (truncf .bf16 x0 bitsLt_bf16_f32)
      (transpose S512x512 [1, 0] (truncf .bf16 x2 bitsLt_bf16_f32) transposes_S512x512_p1_0_S512x512)
      (constant S1024x512 .f32 0x00000000#32))
    (broadcastTo S1024x512 (shapeCast S1x512 x3 shapeCasts_S1x512_S1x512) broadcasts_S1x512_S1024x512)

/-- The projection at entry (p, k): sum_c x[p,c] * W[k,c] + b[k]. -/
theorem linBlk_apply (x2 : Vec Ideal S512x512 .f32) (x3 : Vec Ideal S1x512 .f32) (x0 : Vec Ideal S1024x512 .f32)
    (p : Fin 1024) (q : Fin 512) :
    linBlk x2 x3 x0 (ix2 p q) = (∑ c : Fin 512, x0 (ix2 p c) * x2 (ix2 q c)) + x3 (ix2 (0 : Fin 1) q) := by
  unfold linBlk
  rw [addf_apply]
  congr 1
  · refine (Cert.Lib.plain_matmul_zero_apply 1024 512 512 none (truncf .bf16 x0 bitsLt_bf16_f32)
      (transpose S512x512 [1, 0] (truncf .bf16 x2 bitsLt_bf16_f32) transposes_S512x512_p1_0_S512x512) p q).trans ?_
    refine Finset.sum_congr rfl fun c _ => ?_
    rw [transpose_ix2_apply]
    rfl
  · rw [shapeCast_self]
    exact broadcastTo_1b_ab_apply x3 broadcasts_S1x512_S1024x512 p q

/-- ELU of an array, in the body's spelling. -/
def eluBlk (L : FVec Ideal S1024x512 .f32) : FVec Ideal S1024x512 .f32 :=
  select (cmpf .ogt L (broadcast S1024x512 (Scalar.ofBits .f32 0x00000000#32))) L
    (subf (exp (minimumf L (broadcast S1024x512 (Scalar.ofBits .f32 0x00000000#32))))
      (broadcast S1024x512 (Scalar.ofBits .f32 0x3F800000#32)))

/-- It is ELU entry by entry. -/
theorem eluBlk_apply (L : FVec Ideal S1024x512 .f32) (j : S1024x512.Idx) : eluBlk L j = Cert.Spec.elu (L j) := by
  show Scalar.select (Ideal.cmp .ogt (L j) (Ideal.ofBits .f32 0x00000000#32)) (L j)
      (Ideal.exp (min (L j) (Ideal.ofBits .f32 0x00000000#32)) - Ideal.ofBits .f32 0x3F800000#32) = _
  rw [Ideal.ofBits_zero_f32, Cert.RealEntries.ofBits_one]
  exact elu_spelling (L j)

/-- The first view's activated block is ELU of its projection. -/
theorem pay5_eq (x2 : Vec Ideal S512x512 .f32) (x3 : Vec Ideal S1x512 .f32) (x0 : Vec Ideal S1024x512 .f32) :
    k0_pay5 (F := Ideal) x2 x3 x0 = eluBlk (linBlk x2 x3 x0) := rfl

/-- The second view's activated block is ELU of its projection. -/
theorem pay6_eq (x2 : Vec Ideal S512x512 .f32) (x3 : Vec Ideal S1x512 .f32) (x1 : Vec Ideal S1024x512 .f32) :
    k0_pay6 (F := Ideal) x2 x3 x1 = eluBlk (linBlk x2 x3 x1) := rfl

/-- The column of row norms of an array: squares summed along each row, cast to a column, rooted. -/
def normCol (A : FVec Ideal S1024x512 .f32) : FVec Ideal S1024x1 .f32 :=
  sqrt (shapeCast S1024x1
    (multiReduction (F := Ideal) .add [1] S1024 (mulf A A) 0x00000000#32 reduces_S1024x512_S1024 (.inl rfl) rfl)
    shapeCasts_S1024_S1024x1)

/-- The column at row p is sqrt(sum_k A[p,k]^2). -/
theorem normCol_apply (A : FVec Ideal S1024x512 .f32) (p : Fin 1024) (u : Fin 1) :
    normCol A (ix2 p u) = Ideal.sqrt (∑ k : Fin 512, A (ix2 p k) * A (ix2 p k)) := by
  show Ideal.sqrt (shapeCast S1024x1
    (multiReduction (F := Ideal) .add [1] S1024 (mulf A A) 0x00000000#32 reduces_S1024x512_S1024 (.inl rfl) rfl)
    shapeCasts_S1024_S1024x1 (ix2 p u)) = _
  rw [Cert.Lib.shapeCast_a_a1_apply]
  exact congrArg Ideal.sqrt (Cert.Lib.multiReduction_add_row (a := 1024) (b := 512) (mulf A A) 0x00000000#32
    reduces_S1024x512_S1024 (.inl rfl) rfl p)

/-- The second view's norm column. -/
theorem pay7_eq (x2 : Vec Ideal S512x512 .f32) (x3 : Vec Ideal S1x512 .f32) (x1 : Vec Ideal S1024x512 .f32) :
    k0_pay7 (F := Ideal) x2 x3 x1 = normCol (k0_pay6 x2 x3 x1) := rfl

/-- The first view's norm column, spread over the rows. -/
theorem pay8_eq (x2 : Vec Ideal S512x512 .f32) (x3 : Vec Ideal S1x512 .f32) (x0 : Vec Ideal S1024x512 .f32) :
    k0_pay8 (F := Ideal) x2 x3 x0
      = broadcastTo S1024x512 (normCol (k0_pay5 x2 x3 x0)) broadcasts_S1024x1_S1024x512 := rfl

/-- A block divided by the spread of a norm column N, at (p, k): A[p,k] / N[p]. -/
theorem div_spread_apply (A : FVec Ideal S1024x512 .f32) (N : FVec Ideal S1024x1 .f32) (p : Fin 1024) (q : Fin 512) :
    divf A (broadcastTo S1024x512 N broadcasts_S1024x1_S1024x512) (ix2 p q)
      = Ideal.div (A (ix2 p q)) (N (ix2 p (0 : Fin 1))) := by
  rw [divf_apply, Cert.Lib.broadcastTo_a1_ab_apply]

/-- THE STORED ENTRY: with x the block of a view, W and the bias row b whole, the body's normalised activation at
    (p, k) is a[p,k] / sqrt(sum_k' a[p,k']^2) for a = ELU of the projection. -/
theorem stored_apply (A : FVec Ideal S1024x512 .f32) (p : Fin 1024) (q : Fin 512) :
    divf A (broadcastTo S1024x512 (normCol A) broadcasts_S1024x1_S1024x512) (ix2 p q)
      = Ideal.div (A (ix2 p q)) (Ideal.sqrt (∑ k : Fin 512, A (ix2 p k) * A (ix2 p k))) := by
  rw [div_spread_apply, normCol_apply]

/-- The stored block of the first output, as such a quotient. -/
theorem pay1_eq (x2 : Vec Ideal S512x512 .f32) (x3 : Vec Ideal S1x512 .f32) (x0 : Vec Ideal S1024x512 .f32) :
    k0_pay1 (F := Ideal) (k0_pay5 x2 x3 x0) (k0_pay8 x2 x3 x0)
      = divf (eluBlk (linBlk x2 x3 x0))
          (broadcastTo S1024x512 (normCol (eluBlk (linBlk x2 x3 x0))) broadcasts_S1024x1_S1024x512) := rfl

/-- The stored block of the second output, as such a quotient. -/
theorem pay2_eq (x2 : Vec Ideal S512x512 .f32) (x3 : Vec Ideal S1x512 .f32) (x1 : Vec Ideal S1024x512 .f32) :
    k0_pay2 (F := Ideal) (k0_pay6 x2 x3 x1) (k0_pay7 x2 x3 x1)
      = divf (eluBlk (linBlk x2 x3 x1))
          (broadcastTo S1024x512 (normCol (eluBlk (linBlk x2 x3 x1))) broadcasts_S1024x1_S1024x512) := rfl

/-- The activated projection of the block at (p, k) is the specification's at (r, k), when the block's row p is the
    view's row r and the block's W and bias row are the arrays'. -/
theorem act_blk (X : Cert.Spec.Sx.Idx → EReal) (W : Cert.Spec.Sw.Idx → EReal) (B : S1x512.Idx → EReal)
    (x2 : Vec Ideal S512x512 .f32) (x3 : Vec Ideal S1x512 .f32) (x0 : Vec Ideal S1024x512 .f32)
    (r : Fin 8192) (p : Fin 1024)
    (h0 : ∀ c : Fin 512, x0 (ix2 p c) = X (ix2 r c)) (h2 : ∀ (a b : Fin 512), x2 (ix2 a b) = W (ix2 a b))
    (h3 : ∀ k : Fin 512, x3 (ix2 (0 : Fin 1) k) = B (ix2 (0 : Fin 1) k)) (q : Fin 512) :
    eluBlk (linBlk x2 x3 x0) (ix2 p q) = Cert.Spec.act X W (fun k' => B (ix2 (0 : Fin 1) k')) r q := by
  rw [eluBlk_apply, linBlk_apply]
  unfold Cert.Spec.act Cert.Spec.lin
  rw [h3 q]
  congr 2
  exact Finset.sum_congr rfl fun c _ => by rw [h0 c, h2 q c]

/-- THE STORED ENTRY IS THE SPECIFICATION'S: under the same hypotheses the quotient at (p, k) is zhat at (r, k). -/
theorem stored_spec (X : Cert.Spec.Sx.Idx → EReal) (W : Cert.Spec.Sw.Idx → EReal) (B : S1x512.Idx → EReal)
    (x2 : Vec Ideal S512x512 .f32) (x3 : Vec Ideal S1x512 .f32) (x0 : Vec Ideal S1024x512 .f32)
    (r : Fin 8192) (p : Fin 1024)
    (h0 : ∀ c : Fin 512, x0 (ix2 p c) = X (ix2 r c)) (h2 : ∀ (a b : Fin 512), x2 (ix2 a b) = W (ix2 a b))
    (h3 : ∀ k : Fin 512, x3 (ix2 (0 : Fin 1) k) = B (ix2 (0 : Fin 1) k)) (q : Fin 512) :
    divf (eluBlk (linBlk x2 x3 x0))
        (broadcastTo S1024x512 (normCol (eluBlk (linBlk x2 x3 x0))) broadcasts_S1024x1_S1024x512) (ix2 p q)
      = Cert.Spec.zhat X W (fun k' => B (ix2 (0 : Fin 1) k')) r q := by
  rw [stored_apply]
  unfold Cert.Spec.zhat Cert.Spec.nrm Cert.Spec.sq
  rw [act_blk X W B x2 x3 x0 r p h0 h2 h3 q]
  congr 2
  exact Finset.sum_congr rfl fun k _ => by rw [act_blk X W B x2 x3 x0 r p h0 h2 h3 k]

/-- The same for any entry j of the block and any entry i of the array with the same column whose row holds the
    block's row: the quotient at j is the specification's array at i. -/
theorem stored_spec_idx (X : Cert.Spec.Sx.Idx → EReal) (W : Cert.Spec.Sw.Idx → EReal) (B : S1x512.Idx → EReal)
    (x2 : Vec Ideal S512x512 .f32) (x3 : Vec Ideal S1x512 .f32) (x0 : Vec Ideal S1024x512 .f32)
    (j : S1024x512.Idx) (i : Cert.Spec.Sx.Idx)
    (h0 : ∀ c : Fin 512, x0 (ix2 (j 0) c) = X (ix2 (i 0) c)) (h2 : ∀ (a b : Fin 512), x2 (ix2 a b) = W (ix2 a b))
    (h3 : ∀ k : Fin 512, x3 (ix2 (0 : Fin 1) k) = B (ix2 (0 : Fin 1) k)) (h1 : i 1 = j 1) :
    divf (eluBlk (linBlk x2 x3 x0))
        (broadcastTo S1024x512 (normCol (eluBlk (linBlk x2 x3 x0))) broadcasts_S1024x1_S1024x512) j
      = Cert.Spec.zhatArr X W (fun k' => B (ix2 (0 : Fin 1) k')) i := by
  obtain ⟨p, q, rfl⟩ : ∃ (p : Fin 1024) (q : Fin 512), j = ix2 p q := ⟨j 0, j 1, eq_ix2 j⟩
  unfold Cert.Spec.zhatArr
  rw [h1]
  exact stored_spec X W B x2 x3 x0 (i 0) p h0 h2 h3 q

end Cert.KernelIdeal.Region0

end
-- ==== Proof.Region0Blocks.lean ====
/-
  From the blocks of the first region to its two output arrays.

  The region runs over 8 grid points. At point t the two views' windows hold rows 1024 t … 1024 t + 1023 of their
  arrays, the windows of the weight matrix W and of the bias row hold those arrays whole, and the two output windows
  are written back to rows 1024 t … 1024 t + 1023 of the output arrays. The body's stored entry (p, k) of a block
  depends only on row p of the view's block, on W and on the bias row, and equals the specification's normalised
  activation zhat at row 1024 t + p, column k. So what point t writes back is block t of the array zhat, every
  row r of the output lies in the block of point r / 1024, and the output arrays end holding zhat of the first and
  of the second view.
-/
import proofs.«150668_j60876866454165_2_alg».proof.Proof.Gen.KernelIdeal.Frame
import proofs.«150668_j60876866454165_2_alg».proof.Proof.Gen.KernelIdeal.Points
import proofs.«150668_j60876866454165_2_alg».proof.Proof.Gen.KernelIdeal.Launch
import proofs.«150668_j60876866454165_2_alg».proof.Proof.Spec
import proofs.«150668_j60876866454165_2_alg».proof.Proof.Region0Pay
import Idealize.ShloMosaic.Lib.Pipeline.Value
import Idealize.ShloMosaic.Lib.ValueIdx

noncomputable section

open scoped BigOperators

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-- The zero offsets of a whole-block load or store, however they are spelt. -/
theorem zero_offsets : (![0, 0] : Fin 2 → Nat) = fun _ => 0 := funext fun a => by fin_cases a <;> rfl

/-- The block indices at grid point t: the views' and the outputs' windows are at row block t, column block 0; the
    windows of W and of the bias row stay at block (0, 0). Decided over the 8 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first output array as the specification has it: zhat of the first view. -/
abbrev Z1 (c : Dev nD) : S8192x512.Idx → EReal :=
  Cert.Spec.zhatArr (V c main_arg0) (V c main_arg4) (fun k' => V c main_v0 (ix2 (0 : Fin 1) k'))

/-- The second output array as the specification has it: zhat of the second view. -/
abbrev Z2 (c : Dev nD) : S8192x512.Idx → EReal :=
  Cert.Spec.zhatArr (V c main_arg1) (V c main_arg4) (fun k' => V c main_v0 (ix2 (0 : Fin 1) k'))

/-- The window of W at any point is W whole. -/
theorem wblock (c : Dev nD) (t : Fin cfg0.N) (a b : Fin 512) :
    (iblk0 V c 2 t : Vec Ideal S512x512 .f32) (ix2 a b) = (V c main_arg4 : S512x512.Idx → EReal) (ix2 a b) := by
  obtain ⟨-, -, -, -, e4, e5, -⟩ := block_indices t
  show V c main_arg4 (((cfg0.win 2).blk t).view.emb (ix2 a b)) = V c main_arg4 (ix2 a b)
  refine congrArg _ (funext fun d => Fin.ext ?_)
  match d with
  | ⟨0, _⟩ => show win0_2.index t (0 : Fin 2) * 512 + 1 * a.val = a.val; rw [e4]; omega
  | ⟨1, _⟩ => show win0_2.index t (1 : Fin 2) * 512 + 1 * b.val = b.val; rw [e5]; omega

/-- The window of the bias row at any point is the bias row whole. -/
theorem bblock (c : Dev nD) (t : Fin cfg0.N) (k : Fin 512) :
    (iblk0 V c 3 t : Vec Ideal S1x512 .f32) (ix2 (0 : Fin 1) k) = (V c main_v0 : S1x512.Idx → EReal) (ix2 (0 : Fin 1) k) := by
  obtain ⟨-, -, -, -, -, -, e6, e7, -⟩ := block_indices t
  show V c main_v0 (((cfg0.win 3).blk t).view.emb (ix2 (0 : Fin 1) k)) = V c main_v0 (ix2 (0 : Fin 1) k)
  refine congrArg _ (funext fun d => Fin.ext ?_)
  match d with
  | ⟨0, _⟩ => show win0_3.index t (0 : Fin 2) * 1 + 1 * (0 : Fin 1).val = (0 : Fin 1).val; rw [e6]; rfl
  | ⟨1, _⟩ => show win0_3.index t (1 : Fin 2) * 512 + 1 * k.val = k.val; rw [e7]; omega

/-- WHAT POINT t WRITES BACK to the first output is block t of zhat of the first view. -/
theorem flushed4_eq (c : Dev nD) (t : Fin cfg0.N) :
    (dat0 (F := Ideal) V c).flushed 4 t = ((cfg0.win 4).blk t).view.read (Elt Ideal) (Z1 V c) := by
  show (cfg0.win 4).cut (grid0.coords t) ((dat0 V c).after 4 t) = _
  rw [after0_4]
  unfold out0_4
  rw [View.canon_unit_zero zero_offsets]
  simp only [View.ld_unit_zero (S := S512x512) zero_offsets, View.ld_unit_zero (S := S1x512) zero_offsets,
    View.ld_unit_zero (S := S1024x512) zero_offsets]
  rw [pay1_eq]
  obtain ⟨e0, e1, -, -, -, -, -, -, e8, e9, -, -⟩ := block_indices t
  funext j
  show divf (eluBlk (linBlk (iblk0 V c 2 t) (iblk0 V c 3 t) (iblk0 V c 0 t)))
      (broadcastTo S1024x512 (normCol (eluBlk (linBlk (iblk0 V c 2 t) (iblk0 V c 3 t) (iblk0 V c 0 t))))
        broadcasts_S1024x1_S1024x512) j
    = Cert.Spec.zhatArr (V c main_arg0) (V c main_arg4) (fun k' => V c main_v0 (ix2 (0 : Fin 1) k'))
        (((cfg0.win 4).blk t).view.emb j)
  refine stored_spec_idx (V c main_arg0) (V c main_arg4) (V c main_v0) (iblk0 V c 2 t) (iblk0 V c 3 t) (iblk0 V c 0 t)
    j (((cfg0.win 4).blk t).view.emb j) (fun c' => ?_) (wblock V c t) (bblock V c t) (Fin.ext ?_)
  · show V c main_arg0 (((cfg0.win 0).blk t).view.emb (ix2 (j 0) c'))
      = V c main_arg0 (ix2 ((((cfg0.win 4).blk t).view.emb j) 0) c')
    refine congrArg _ (funext fun d => Fin.ext ?_)
    match d with
    | ⟨0, _⟩ =>
      show win0_0.index t (0 : Fin 2) * 1024 + 1 * (j 0).val = win0_4.index t (0 : Fin 2) * 1024 + 1 * (j 0).val
      rw [e0, e8]
    | ⟨1, _⟩ => show win0_0.index t (1 : Fin 2) * 512 + 1 * c'.val = c'.val; rw [e1]; omega
  · show win0_4.index t (1 : Fin 2) * 512 + 1 * (j 1).val = (j 1).val
    rw [e9]; omega

/-- WHAT POINT t WRITES BACK to the second output is block t of zhat of the second view. -/
theorem flushed5_eq (c : Dev nD) (t : Fin cfg0.N) :
    (dat0 (F := Ideal) V c).flushed 5 t = ((cfg0.win 5).blk t).view.read (Elt Ideal) (Z2 V c) := by
  show (cfg0.win 5).cut (grid0.coords t) ((dat0 V c).after 5 t) = _
  rw [after0_5]
  unfold out0_5
  rw [View.canon_unit_zero zero_offsets]
  simp only [View.ld_unit_zero (S := S512x512) zero_offsets, View.ld_unit_zero (S := S1x512) zero_offsets,
    View.ld_unit_zero (S := S1024x512) zero_offsets]
  rw [pay2_eq]
  obtain ⟨-, -, e2, e3, -, -, -, -, -, -, e10, e11⟩ := block_indices t
  funext j
  show divf (eluBlk (linBlk (iblk0 V c 2 t) (iblk0 V c 3 t) (iblk0 V c 1 t)))
      (broadcastTo S1024x512 (normCol (eluBlk (linBlk (iblk0 V c 2 t) (iblk0 V c 3 t) (iblk0 V c 1 t))))
        broadcasts_S1024x1_S1024x512) j
    = Cert.Spec.zhatArr (V c main_arg1) (V c main_arg4) (fun k' => V c main_v0 (ix2 (0 : Fin 1) k'))
        (((cfg0.win 5).blk t).view.emb j)
  refine stored_spec_idx (V c main_arg1) (V c main_arg4) (V c main_v0) (iblk0 V c 2 t) (iblk0 V c 3 t) (iblk0 V c 1 t)
    j (((cfg0.win 5).blk t).view.emb j) (fun c' => ?_) (wblock V c t) (bblock V c t) (Fin.ext ?_)
  · show V c main_arg1 (((cfg0.win 1).blk t).view.emb (ix2 (j 0) c'))
      = V c main_arg1 (ix2 ((((cfg0.win 5).blk t).view.emb j) 0) c')
    refine congrArg _ (funext fun d => Fin.ext ?_)
    match d with
    | ⟨0, _⟩ =>
      show win0_1.index t (0 : Fin 2) * 1024 + 1 * (j 0).val = win0_5.index t (0 : Fin 2) * 1024 + 1 * (j 0).val
      rw [e2, e10]
    | ⟨1, _⟩ => show win0_1.index t (1 : Fin 2) * 512 + 1 * c'.val = c'.val; rw [e3]; omega
  · show win0_5.index t (1 : Fin 2) * 512 + 1 * (j 1).val = (j 1).val
    rw [e11]; omega

/-- An entry of the first output array is in point t's block iff each coordinate is in the block's range. -/
theorem mem_blk4 (t : Fin cfg0.N) (i : S8192x512.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v1_0).slice (win0_4.rect t)).set ↔ _
  rw [View.set_slice_whole, Rect.mem_set_unit]
  exact Iff.rfl

/-- An entry of the second output array is in point t's block iff each coordinate is in the block's range. -/
theorem mem_blk5 (t : Fin cfg0.N) (i : S8192x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v1_1).slice (win0_5.rect t)).set ↔ _
  rw [View.set_slice_whole, Rect.mem_set_unit]
  exact Iff.rfl

/-- The point whose blocks hold row r: r / 1024. -/
theorem point_of_row (i : S8192x512.Idx) : ∃ t : Fin cfg0.N, t.val = (i 0).val / 1024 := by
  have h0 : (i 0).val < 8192 := (i 0).isLt
  exact ⟨⟨(i 0).val / 1024, by rw [show cfg0.N = 8 from N_0]; omega⟩, rfl⟩

/-- Every entry of the first output array is written back by some point. -/
theorem cover4 (i : S8192x512.Idx) :
    ∃ t : Fin cfg0.N, (cfg0.win 4).flush t = true ∧ i ∈ ((cfg0.win 4).blk t).view.set := by
  have h0 : (i 0).val < 8192 := (i 0).isLt
  have h1 : (i 1).val < 512 := (i 1).isLt
  obtain ⟨t, ht⟩ := point_of_row i
  obtain ⟨-, -, -, -, -, -, -, -, e8, e9, -, -⟩ := block_indices t
  refine ⟨t, flush0_4 t, ?_⟩
  rw [mem_blk4]
  intro a
  match a with
  | ⟨0, _⟩ =>
    show win0_4.index t (0 : Fin 2) * 1024 ≤ (i 0).val ∧ (i 0).val < win0_4.index t (0 : Fin 2) * 1024 + 1024
    rw [e8, ht]; omega
  | ⟨1, _⟩ =>
    show win0_4.index t (1 : Fin 2) * 512 ≤ (i 1).val ∧ (i 1).val < win0_4.index t (1 : Fin 2) * 512 + 512
    rw [e9]; omega

/-- Every entry of the second output array is written back by some point. -/
theorem cover5 (i : S8192x512.Idx) :
    ∃ t : Fin cfg0.N, (cfg0.win 5).flush t = true ∧ i ∈ ((cfg0.win 5).blk t).view.set := by
  have h0 : (i 0).val < 8192 := (i 0).isLt
  have h1 : (i 1).val < 512 := (i 1).isLt
  obtain ⟨t, ht⟩ := point_of_row i
  obtain ⟨-, -, -, -, -, -, -, -, -, -, e10, e11⟩ := block_indices t
  refine ⟨t, flush0_5 t, ?_⟩
  rw [mem_blk5]
  intro a
  match a with
  | ⟨0, _⟩ =>
    show win0_5.index t (0 : Fin 2) * 1024 ≤ (i 0).val ∧ (i 0).val < win0_5.index t (0 : Fin 2) * 1024 + 1024
    rw [e10, ht]; omega
  | ⟨1, _⟩ =>
    show win0_5.index t (1 : Fin 2) * 512 ≤ (i 1).val ∧ (i 1).val < win0_5.index t (1 : Fin 2) * 512 + 512
    rw [e11]; omega

/-- THE FIRST OUTPUT ARRAY after the region is zhat of the first view, whole. -/
theorem out4_arr (c : Dev nD) : (dat0 (F := Ideal) V c).arrAt 4 cfg0.N = Z1 V c :=
  (dat0 V c).arrAt_eq_of_cover 4 (Z1 V c) (fun t _ => flushed4_eq V c t) cover4

/-- THE SECOND OUTPUT ARRAY after the region is zhat of the second view, whole. -/
theorem out5_arr (c : Dev nD) : (dat0 (F := Ideal) V c).arrAt 5 cfg0.N = Z2 V c :=
  (dat0 V c).arrAt_eq_of_cover 5 (Z2 V c) (fun t _ => flushed5_eq V c t) cover5

end Cert.KernelIdeal.Region0

end
-- ==== Proof.Region0.lean ====
/-
  The value of the first region: after it, the first output array holds, at row i and column k, the activated
  projection of the first view at (i, k) divided by the Euclidean norm of its row i — the specification's zhat with
  x the first view, W the weight matrix and b[k] the entry k of the bias row — and the second output array holds
  the same of the second view. Read off the whole-array equalities (each output array is the array zhat) at one index.
-/
import proofs.«150668_j60876866454165_2_alg».proof.Proof.Region0Blocks

noncomputable section

namespace Cert.KernelIdeal.Region0

open Idealize.ShloMosaic Idealize.ShloMosaic.TcCoe Idealize.ShloMosaic.ValueIdx Idealize.SL.Sem Cert.KernelIdeal Cert.KernelIdeal.Gen

/-- THE FIRST OUTPUT at (i, k): act[i,k] / nrm[i] of the first view. -/
theorem out4 (V : (c : Dev nD) → (b : Ref sig .tc) → Buf (Elt Ideal) ((c : Thread nD τ).loc b)) (c : Dev nD)
    (i : Fin 8192) (k : Fin 512) :
    (dat0 (F := Ideal) V c).arrAt 4 cfg0.N (ix2 i k)
      = Cert.Spec.zhat (V c main_arg0) (V c main_arg4) (fun k' => V c main_v0 (ix2 (0 : Fin 1) k')) i k :=
  congrFun (out4_arr V c) (ix2 i k)

/-- THE SECOND OUTPUT at (i, k): act[i,k] / nrm[i] of the second view. -/
theorem out5 (V : (c : Dev nD) → (b : Ref sig .tc) → Buf (Elt Ideal) ((c : Thread nD τ).loc b)) (c : Dev nD)
    (i : Fin 8192) (k : Fin 512) :
    (dat0 (F := Ideal) V c).arrAt 5 cfg0.N (ix2 i k)
      = Cert.Spec.zhat (V c main_arg1) (V c main_arg4) (fun k' => V c main_v0 (ix2 (0 : Fin 1) k')) i k :=
  congrFun (out5_arr V c) (ix2 i k)

/-- The first output as a whole array. -/
theorem out4_zhatArr (V : (c : Dev nD) → (b : Ref sig .tc) → Buf (Elt Ideal) ((c : Thread nD τ).loc b)) (c : Dev nD) :
    (dat0 (F := Ideal) V c).arrAt 4 cfg0.N
      = Cert.Spec.zhatArr (V c main_arg0) (V c main_arg4) (fun k' => V c main_v0 (ix2 (0 : Fin 1) k')) :=
  out4_arr V c

/-- The second output as a whole array. -/
theorem out5_zhatArr (V : (c : Dev nD) → (b : Ref sig .tc) → Buf (Elt Ideal) ((c : Thread nD τ).loc b)) (c : Dev nD) :
    (dat0 (F := Ideal) V c).arrAt 5 cfg0.N
      = Cert.Spec.zhatArr (V c main_arg1) (V c main_arg4) (fun k' => V c main_v0 (ix2 (0 : Fin 1) k')) :=
  out5_arr V c

end Cert.KernelIdeal.Region0

end
-- ==== Proof.Region1Case.lean ====
/-
  What one grid point leaves in the two accumulator blocks, as values.

  At a point whose column-block is 0 the body first stores the zero block into each accumulator and then stores, over
  the whole block, the point's update of what it has just read back, i.e. of the zero block. At every other point it
  stores the update of the block the previous point left. In both cases the block ends as ONE covering store, so its
  contents are that store's value: the update applied to the zero block, or to the carried block.
-/
import proofs.«150668_j60876866454165_2_alg».proof.Proof.Gen.KernelIdeal.Frame
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.SL.Sem Idealize.ShloMosaic.Tactic
open Cert.KernelIdeal Cert.KernelIdeal.Gen

variable {F : FTy → Type} [FloatOps F] [Named F]

/-- The offset of every load and store of the body: the block's origin. -/
theorem hz : (![0, 0] : Fin 2 → Nat) = fun _ => 0 := funext fun a => by fin_cases a <;> rfl

/-- A later column-point leaves, in the first accumulator's block holding `xo4`, the update of `xo4`. -/
theorem out_B_4 (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x128 .f32) (h6 : a6.IsWhole) (a7 : Memref sig .tc .vmem S1024x128 .f32) (h7 : a7.IsWhole) (hc : ¬cond1_0 i)
    (x0 x1 : Vec F S1024x512 .bf16) (x2 x3 : Vec F S1024x1024 .f32) (xo4 xo5 : Vec F S1024x128 .f32) :
    out1_B_4 c i a2 h2 a3 h3 a4 h4 a5 h5 a6 h6 a7 h7 hc x0 x1 x2 x3 xo4 xo5 = k1_pay4 x0 x1 x2 xo4 := by
  unfold out1_B_4
  rw [View.read_writes_eq_canon _ _ _ (cover1_B_4 c i a2 h2 a3 h3 a4 h4 a5 h5 a6 h6 a7 h7 hc x0 x1 x2 x3 xo4 xo5)]
  unfold kernelRun1_B
  dsimp only
  rw [View.canon_unit_zero hz]
  simp only [View.readAt_eq_ld, h2.read_unread, h3.read_unread, h4.read_unread, h6.read_unread,
    View.ld_unit_zero (S := S1024x512) hz, View.ld_unit_zero (S := S1024x1024) hz, View.ld_unit_zero (S := S1024x128) hz]

/-- A later column-point leaves, in the second accumulator's block holding `xo5`, the update of `xo5`. -/
theorem out_B_5 (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x128 .f32) (h6 : a6.IsWhole) (a7 : Memref sig .tc .vmem S1024x128 .f32) (h7 : a7.IsWhole) (hc : ¬cond1_0 i)
    (x0 x1 : Vec F S1024x512 .bf16) (x2 x3 : Vec F S1024x1024 .f32) (xo4 xo5 : Vec F S1024x128 .f32) :
    out1_B_5 c i a2 h2 a3 h3 a4 h4 a5 h5 a6 h6 a7 h7 hc x0 x1 x2 x3 xo4 xo5 = k1_pay5 x0 x1 x3 xo5 := by
  unfold out1_B_5
  rw [View.read_writes_eq_canon _ _ _ (cover1_B_5 c i a2 h2 a3 h3 a4 h4 a5 h5 a6 h6 a7 h7 hc x0 x1 x2 x3 xo4 xo5)]
  unfold kernelRun1_B
  dsimp only
  rw [View.canon_unit_zero hz]
  simp only [View.readAt_eq_ld, h2.read_unread, h3.read_unread, h5.read_unread, h7.read_unread,
    View.ld_unit_zero (S := S1024x512) hz, View.ld_unit_zero (S := S1024x1024) hz, View.ld_unit_zero (S := S1024x128) hz]

/-- The first column-point leaves, in the first accumulator's block, the update of the zero block. -/
theorem out_A_4 (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x128 .f32) (h6 : a6.IsWhole) (a7 : Memref sig .tc .vmem S1024x128 .f32) (h7 : a7.IsWhole) (hc : cond1_0 i)
    (x0 x1 : Vec F S1024x512 .bf16) (x2 x3 : Vec F S1024x1024 .f32) :
    out1_A_4 c i a2 h2 a3 h3 a4 h4 a5 h5 a6 h6 a7 h7 hc x0 x1 x2 x3 = k1_pay4 x0 x1 x2 (k1_pay1 (F := F)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S1024x128) hz]
  simp only [View.readAt_eq_ld, h2.read_unread, h3.read_unread, h4.read_unread,
    View.ld_unit_zero (S := S1024x512) hz, View.ld_unit_zero (S := S1024x1024) hz, View.ld_unit_zero (S := S1024x128) hz,
    View.readCov_unit_zero (S := S1024x128) _ hz]

/-- The first column-point leaves, in the second accumulator's block, the update of the zero block. -/
theorem out_A_5 (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1024 .f32) (h4 : a4.IsWhole) (a5 : Memref sig .tc .vmem S1024x1024 .f32) (h5 : a5.IsWhole) (a6 : Memref sig .tc .vmem S1024x128 .f32) (h6 : a6.IsWhole) (a7 : Memref sig .tc .vmem S1024x128 .f32) (h7 : a7.IsWhole) (hc : cond1_0 i)
    (x0 x1 : Vec F S1024x512 .bf16) (x2 x3 : Vec F S1024x1024 .f32) :
    out1_A_5 c i a2 h2 a3 h3 a4 h4 a5 h5 a6 h6 a7 h7 hc x0 x1 x2 x3 = k1_pay5 x0 x1 x3 (k1_pay2 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1024x128) hz]
  simp only [View.readAt_eq_ld, h2.read_unread, h3.read_unread, h5.read_unread,
    View.ld_unit_zero (S := S1024x512) hz, View.ld_unit_zero (S := S1024x1024) hz, View.ld_unit_zero (S := S1024x128) hz,
    View.readCov_unit_zero (S := S1024x128) _ hz]

end Cert.KernelIdeal.Region1

end
-- ==== Proof.Region1Pay.lean ====
/-
  The arithmetic of one grid point of the similarity stage, read entry by entry on the extended reals.

  One point holds a block of 1024 rows of the first view (z1, 512 features each), a block of 1024 rows of the second
  view (z2), and the matching 1024 x 1024 block of a mask p. The body forms the 1024 x 1024 matrix of dot products
  z1[r,:] . z2[c,:] (a product with the transposed second block, accumulated from zero), multiplies by the constant
  kap, exponentiates, multiplies entrywise by the mask, sums every row over its 1024 columns and adds that one number
  to all 128 lanes of row r of the running block. So lane l of row r becomes
      old[r,l] + sum_c exp((sum_k z1[r,k] * z2[c,k]) * kap) * p[r,c].
  The block the first column-point starts from is the zero word, which is the extended real 0.
-/
import proofs.«150668_j60876866454165_2_alg».proof.Proof.Gen.KernelIdeal.Skeleton
import proofs.«150668_j60876866454165_2_alg».proof.Proof.LibPlainDot
import proofs.«150668_j60876866454165_2_alg».proof.Proof.LibRowReduce
import proofs.«150668_j60876866454165_2_alg».proof.Proof.LibKeepdims
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.ValueIdx
open Cert.KernelIdeal Cert.KernelIdeal.Gen

/-- The constant the dot products are multiplied by, kept as the opaque named term. -/
abbrev kap : EReal := Named.named (F := Ideal) κ "inv_tau" (φ := .f32) 0x3FA00000#32

/-- The transposed second block read at (k, c) is the block at (c, k). -/
theorem transpose_block_apply {α : Type} (x : S1024x512.Idx → α) (k : Fin 512) (c : Fin 1024) :
    transpose S512x1024 [1, 0] x transposes_S1024x512_p1_0_S512x1024 (ix2 k c) = x (ix2 c k) := by
  refine transpose_apply [1, 0] x transposes_S1024x512_p1_0_S512x1024 (ix2 k c) (ix2 c k) fun b => ?_
  match b with
  | ⟨0, _⟩ => rfl
  | ⟨1, _⟩ => rfl

/-- The exponentiated, scaled dot product of row r of the first block and row c of the second. -/
theorem pay3_apply (v3 v5 : Vec Ideal S1024x512 .bf16) (r c : Fin 1024) :
    k1_pay3 (F := Ideal) v3 v5 (ix2 r c)
      = Ideal.exp ((∑ k : Fin 512, v3 (ix2 r k) * v5 (ix2 c k)) * kap) := by
  unfold k1_pay3
  dsimp only
  refine congrArg (fun z : EReal => Ideal.exp (z * kap)) ?_
  refine (Cert.Lib.plain_matmul_zero_apply 1024 512 1024 none _ _ r c).trans ?_
  refine Finset.sum_congr rfl fun k _ => ?_
  rw [shapeCast_self, shapeCast_self, transpose_block_apply]

/-- The zero block: every entry is the extended real 0. -/
theorem pay1_apply (r : Fin 1024) (l : Fin 128) : k1_pay1 (F := Ideal) (ix2 r l) = 0 :=
  Ideal.ofBits_zero_f32

/-- The second accumulator's zero block likewise. -/
theorem pay2_apply (r : Fin 1024) (l : Fin 128) : k1_pay2 (F := Ideal) (ix2 r l) = 0 :=
  Ideal.ofBits_zero_f32

/-- One point's update of lane l of row r: the old entry plus the row's masked sum of similarities. -/
theorem pay4_apply (v3 v5 : Vec Ideal S1024x512 .bf16) (v12 : Vec Ideal S1024x1024 .f32) (v20 : Vec Ideal S1024x128 .f32)
    (r : Fin 1024) (l : Fin 128) :
    k1_pay4 (F := Ideal) v3 v5 v12 v20 (ix2 r l)
      = v20 (ix2 r l) + ∑ c : Fin 1024, k1_pay3 (F := Ideal) v3 v5 (ix2 r c) * v12 (ix2 r c) := by
  unfold k1_pay4
  dsimp only
  refine (addf_apply _ _ (ix2 r l)).trans ?_
  refine congrArg₂ (· + ·) ?_ ?_
  · exact congrFun (shapeCast_self _ _) _
  · refine (Cert.Lib.broadcastTo_a1_ab_apply _ _ r l).trans ?_
    refine (congrFun (shapeCast_self _ _) _).trans ?_
    refine (Cert.Lib.shapeCast_a_a1_apply _ _ r 0).trans ?_
    exact Cert.Lib.multiReduction_add_row _ _ _ _ _ r

/-- The same for the second accumulator, which differs only in the mask. -/
theorem pay5_apply (v3 v5 : Vec Ideal S1024x512 .bf16) (v13 : Vec Ideal S1024x1024 .f32) (v26 : Vec Ideal S1024x128 .f32)
    (r : Fin 1024) (l : Fin 128) :
    k1_pay5 (F := Ideal) v3 v5 v13 v26 (ix2 r l)
      = v26 (ix2 r l) + ∑ c : Fin 1024, k1_pay3 (F := Ideal) v3 v5 (ix2 r c) * v13 (ix2 r c) := by
  unfold k1_pay5
  dsimp only
  refine (addf_apply _ _ (ix2 r l)).trans ?_
  refine congrArg₂ (· + ·) ?_ ?_
  · exact congrFun (shapeCast_self _ _) _
  · refine (Cert.Lib.broadcastTo_a1_ab_apply _ _ r l).trans ?_
    refine (congrFun (shapeCast_self _ _) _).trans ?_
    refine (Cert.Lib.shapeCast_a_a1_apply _ _ r 0).trans ?_
    exact Cert.Lib.multiReduction_add_row _ _ _ _ _ r

end Cert.KernelIdeal.Region1

end
-- ==== Proof.Region1Point.lean ====
/-
  One grid point of the similarity stage in terms of the whole arrays.

  The grid is 8 x 8; point t has row-block I = t / 8 and column-block J = t % 8. The point's block of the first view
  holds rows 1024 I + r of z1, its block of the second view rows 1024 J + c of z2, and its block of a mask the entries
  (1024 I + r, 1024 J + c). So the update of lane l of row r adds, to what the block held,
      sum_{c < 1024} s(i, 1024 J + c)        with i = 1024 I + r and s(i, j) = exp((z1[i,:] . z2[j,:]) * kap) * p[i,j],
  the J-th chunk of 1024 consecutive terms of the row's whole sum over j.
-/
import proofs.«150668_j60876866454165_2_alg».proof.Proof.Gen.KernelIdeal.Frame
import proofs.«150668_j60876866454165_2_alg».proof.Proof.Region1Pay
import proofs.«150668_j60876866454165_2_alg».proof.Proof.Spec
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

/-- The summand of a row's accumulator: the similarity of rows i and j weighted by the mask's entry (i, j). -/
def term (z1 z2 : Cert.Spec.Sx.Idx → EReal) (p : Cert.Spec.Sm.Idx → EReal) (i j : Fin 8192) : EReal :=
  Cert.Spec.simK z1 z2 kap i j * p (ix2 i j)

/-- A row's accumulator is the sum of its summands. -/
theorem rowAcc_eq (z1 z2 : Cert.Spec.Sx.Idx → EReal) (p : Cert.Spec.Sm.Idx → EReal) (i : Fin 8192) :
    Cert.Spec.rowAcc z1 z2 kap p i = ∑ j : Fin 8192, term z1 z2 p i j := rfl

/-- The update of one point whose blocks hold row i of the first view, the J-th chunk of rows of the second view and
    the matching entries of the mask: the J-th chunk of the row's summands is added to the old entry. -/
theorem point_update (z1 z2 : Cert.Spec.Sx.Idx → EReal) (p : Cert.Spec.Sm.Idx → EReal) (J : ℕ) (hJ : 1024 * (J + 1) ≤ 8192)
    (x0 x1 : Vec Ideal S1024x512 .bf16) (x2 : Vec Ideal S1024x1024 .f32) (xo : Vec Ideal S1024x128 .f32)
    (r : Fin 1024) (l : Fin 128) (i : Fin 8192)
    (e0 : ∀ k : Fin 512, x0 (ix2 r k) = z1 (ix2 i k))
    (e1 : ∀ (cc : Fin 1024) (k : Fin 512), x1 (ix2 cc k) = z2 (ix2 (⟨1024 * J + cc.val, by have := cc.isLt; omega⟩ : Fin 8192) k))
    (e2 : ∀ cc : Fin 1024, x2 (ix2 r cc) = p (ix2 i (⟨1024 * J + cc.val, by have := cc.isLt; omega⟩ : Fin 8192))) :
    k1_pay4 (F := Ideal) x0 x1 x2 xo (ix2 r l)
      = xo (ix2 r l) + ∑ cc : Fin 1024, term z1 z2 p i ⟨1024 * J + cc.val, by have := cc.isLt; omega⟩ := by
  rw [pay4_apply]
  refine congrArg (xo (ix2 r l) + ·) (Finset.sum_congr rfl fun cc _ => ?_)
  rw [pay3_apply, e2 cc]
  unfold term Cert.Spec.simK
  simp only [e0, e1]

/-- The same for the second accumulator (the payload that reads the other mask). -/
theorem point_update' (z1 z2 : Cert.Spec.Sx.Idx → EReal) (p : Cert.Spec.Sm.Idx → EReal) (J : ℕ) (hJ : 1024 * (J + 1) ≤ 8192)
    (x0 x1 : Vec Ideal S1024x512 .bf16) (x3 : Vec Ideal S1024x1024 .f32) (xo : Vec Ideal S1024x128 .f32)
    (r : Fin 1024) (l : Fin 128) (i : Fin 8192)
    (e0 : ∀ k : Fin 512, x0 (ix2 r k) = z1 (ix2 i k))
    (e1 : ∀ (cc : Fin 1024) (k : Fin 512), x1 (ix2 cc k) = z2 (ix2 (⟨1024 * J + cc.val, by have := cc.isLt; omega⟩ : Fin 8192) k))
    (e2 : ∀ cc : Fin 1024, x3 (ix2 r cc) = p (ix2 i (⟨1024 * J + cc.val, by have := cc.isLt; omega⟩ : Fin 8192))) :
    k1_pay5 (F := Ideal) x0 x1 x3 xo (ix2 r l)
      = xo (ix2 r l) + ∑ cc : Fin 1024, term z1 z2 p i ⟨1024 * J + cc.val, by have := cc.isLt; omega⟩ := by
  rw [pay5_apply]
  refine congrArg (xo (ix2 r l) + ·) (Finset.sum_congr rfl fun cc _ => ?_)
  rw [pay3_apply, e2 cc]
  unfold term Cert.Spec.simK
  simp only [e0, e1]

/-- The block indices of the six windows at point t, decided over the 64 points: the row-block is t / 8, the
    column-block t % 8; the views' and the accumulators' blocks span all columns. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val / 8 ∧ win1_3.index t (1 : Fin 2) = t.val % 8
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

variable (V : (c : Dev nD) → (b : Ref sig .tc) → Buf (Elt Ideal) ((c : Thread nD τ).loc b))

/-- The first view's block at point t holds rows 1024 (t / 8) + r of the array. -/
theorem blk0_apply (c : Dev nD) (t : Fin cfg1.N) (r : Fin 1024) (k : Fin 512) (i : Fin 8192)
    (hi : i.val = 1024 * (t.val / 8) + r.val) :
    (iblk1 (F := Ideal) V c 0 t : Vec Ideal S1024x512 .bf16) (ix2 r k) = V c main_v1_0 (ix2 i k) := by
  obtain ⟨e00, e01, -⟩ := idx_facts t
  unfold iblk1
  rw [View.read_apply]
  show V c main_v1_0 _ = V c main_v1_0 _
  congr 1
  funext a
  apply Fin.ext
  match a with
  | ⟨0, _⟩ => show win1_0.index t (0 : Fin 2) * 1024 + 1 * r.val = i.val; rw [e00, hi]; omega
  | ⟨1, _⟩ => show win1_0.index t (1 : Fin 2) * 512 + 1 * k.val = k.val; rw [e01]; omega

/-- The second view's block at point t holds rows 1024 (t % 8) + c of the array. -/
theorem blk1_apply (c : Dev nD) (t : Fin cfg1.N) (cc : Fin 1024) (k : Fin 512) (j : Fin 8192)
    (hj : j.val = 1024 * (t.val % 8) + cc.val) :
    (iblk1 (F := Ideal) V c 1 t : Vec Ideal S1024x512 .bf16) (ix2 cc k) = V c main_v1_1 (ix2 j k) := by
  obtain ⟨-, -, e10, e11, -⟩ := idx_facts t
  unfold iblk1
  rw [View.read_apply]
  show V c main_v1_1 _ = V c main_v1_1 _
  congr 1
  funext a
  apply Fin.ext
  match a with
  | ⟨0, _⟩ => show win1_1.index t (0 : Fin 2) * 1024 + 1 * cc.val = j.val; rw [e10, hj]; omega
  | ⟨1, _⟩ => show win1_1.index t (1 : Fin 2) * 512 + 1 * k.val = k.val; rw [e11]; omega

/-- The first mask's block at point t holds the entries (1024 (t / 8) + r, 1024 (t % 8) + c). -/
theorem blk2_apply (c : Dev nD) (t : Fin cfg1.N) (r cc : Fin 1024) (i j : Fin 8192)
    (hi : i.val = 1024 * (t.val / 8) + r.val) (hj : j.val = 1024 * (t.val % 8) + cc.val) :
    (iblk1 (F := Ideal) V c 2 t : Vec Ideal S1024x1024 .f32) (ix2 r cc) = V c main_arg2 (ix2 i j) := by
  obtain ⟨-, -, -, -, e20, e21, -⟩ := idx_facts t
  unfold iblk1
  rw [View.read_apply]
  show V c main_arg2 _ = V c main_arg2 _
  congr 1
  funext a
  apply Fin.ext
  match a with
  | ⟨0, _⟩ => show win1_2.index t (0 : Fin 2) * 1024 + 1 * r.val = i.val; rw [e20, hi]; omega
  | ⟨1, _⟩ => show win1_2.index t (1 : Fin 2) * 1024 + 1 * cc.val = j.val; rw [e21, hj]; omega

/-- The second mask's block at point t holds the entries (1024 (t / 8) + r, 1024 (t % 8) + c). -/
theorem blk3_apply (c : Dev nD) (t : Fin cfg1.N) (r cc : Fin 1024) (i j : Fin 8192)
    (hi : i.val = 1024 * (t.val / 8) + r.val) (hj : j.val = 1024 * (t.val % 8) + cc.val) :
    (iblk1 (F := Ideal) V c 3 t : Vec Ideal S1024x1024 .f32) (ix2 r cc) = V c main_arg3 (ix2 i j) := by
  obtain ⟨-, -, -, -, -, -, e30, e31, -⟩ := idx_facts t
  unfold iblk1
  rw [View.read_apply]
  show V c main_arg3 _ = V c main_arg3 _
  congr 1
  funext a
  apply Fin.ext
  match a with
  | ⟨0, _⟩ => show win1_3.index t (0 : Fin 2) * 1024 + 1 * r.val = i.val; rw [e30, hi]; omega
  | ⟨1, _⟩ => show win1_3.index t (1 : Fin 2) * 1024 + 1 * cc.val = j.val; rw [e31, hj]; omega

end Cert.KernelIdeal.Region1

end
-- ==== Proof.LibChunkPrefix.lean ====
/-
  Sums taken a chunk at a time.

  In an additive commutative monoid, let f be indexed by Fin K and let P be a chunk length. Write S(c) for the sum of
  f over the indices below c, stated as a sum over ALL of Fin K of the entries guarded by "k < c" (zero elsewhere).
  Then
    S(P·0) = 0,
    S(P·n) + Σ_{kk < P} f(P·n + kk) = S(P·(n+1))   whenever P·(n+1) ≤ K,
    S(P·n) = Σ_k f(k)                              whenever K ≤ P·n.
  So a sum over K = P·N indices accumulated in N chunks of P consecutive entries is the whole sum.
-/
import Mathlib.Algebra.BigOperators.Fin
import Mathlib.Tactic

open scoped BigOperators

namespace Cert.LibChunkPrefix

variable {M : Type*} [AddCommMonoid M]

/-- A family over `Fin K` continued by zero to all natural numbers. -/
def ext {K : ℕ} (f : Fin K → M) (k : ℕ) : M := if h : k < K then f ⟨k, h⟩ else 0

theorem ext_val {K : ℕ} (f : Fin K → M) (k : Fin K) : ext f k.val = f k := dif_pos k.isLt

theorem ext_of_lt {K : ℕ} (f : Fin K → M) (k : ℕ) (h : k < K) : ext f k = f ⟨k, h⟩ := dif_pos h

/-- The guarded sum over the whole index type is the sum of the first `c` entries. -/
theorem guarded_eq_range {K : ℕ} (f : Fin K → M) (c : ℕ) (hc : c ≤ K) :
    (∑ k : Fin K, if k.val < c then f k else 0) = ∑ k ∈ Finset.range c, ext f k := by
  have e : (fun k : Fin K => if k.val < c then f k else 0)
      = fun k : Fin K => (fun j : ℕ => if j < c then ext f j else 0) k.val :=
    funext fun k => by simp only [ext_val]
  rw [e, Fin.sum_univ_eq_sum_range (fun j : ℕ => if j < c then ext f j else 0) K, ← Finset.sum_filter]
  refine Finset.sum_congr ?_ fun _ _ => rfl
  ext j
  simp only [Finset.mem_filter, Finset.mem_range]
  omega

/-- Nothing has been added before the first chunk. -/
theorem prefix_zero {K : ℕ} (P : ℕ) (f : Fin K → M) :
    (∑ k : Fin K, if k.val < P * 0 then f k else 0) = 0 :=
  Finset.sum_eq_zero fun k _ => if_neg (by rw [Nat.mul_zero]; exact Nat.not_lt_zero _)

/-- Adding chunk `n` (the `P` entries from `P·n` on) to the sum of the entries below `P·n` gives the sum of the entries
    below `P·(n+1)`. -/
theorem prefix_step {K : ℕ} (P n : ℕ) (f : Fin K → M) (h : P * (n + 1) ≤ K) :
    (∑ k : Fin K, if k.val < P * n then f k else 0)
        + (∑ kk : Fin P, f ⟨P * n + kk.val,
            lt_of_lt_of_le (by have := kk.isLt; have : P * (n + 1) = P * n + P := Nat.mul_succ P n; omega) h⟩)
      = ∑ k : Fin K, if k.val < P * (n + 1) then f k else 0 := by
  have h0 : P * n ≤ K := le_trans (Nat.mul_le_mul_left P (Nat.le_succ n)) h
  have e : Finset.range (P * (n + 1)) = Finset.range (P * n + P) := congrArg Finset.range (Nat.mul_succ P n)
  rw [guarded_eq_range f _ h0, guarded_eq_range f _ h, e, Finset.sum_range_add]
  congr 1
  rw [← Fin.sum_univ_eq_sum_range (fun x => ext f (P * n + x)) P]
  exact Finset.sum_congr rfl fun kk _ => (ext_of_lt f _ _).symm

/-- Once the chunks reach the end, the guarded sum is the whole sum. -/
theorem prefix_all {K : ℕ} (P n : ℕ) (f : Fin K → M) (h : K ≤ P * n) :
    (∑ k : Fin K, if k.val < P * n then f k else 0) = ∑ k : Fin K, f k :=
  Finset.sum_congr rfl fun k _ => if_pos (lt_of_lt_of_le k.isLt h)

end Cert.LibChunkPrefix
-- ==== Proof.Region1Inv.lean ====
/-
  The running contents of the two accumulator blocks, point by point.

  Fix a row i = 1024 I + r. Along the eight points of row-block I (column-blocks J = 0 .. 7, in that order) the block's
  entry (r, l) starts as the J = 0 chunk of the row's summands added to zero and then gains chunk J at point J. Hence after
  the point with column-block J it holds the sum of the summands s(i, j) over j < 1024 (J + 1) — written as a sum over
  all j guarded by that bound. Only 0 + x = x and the step "guarded sum below 1024 J plus chunk J is the guarded sum below
  1024 (J + 1)" are used, so nothing about finiteness is needed. The induction is over the point's number n = 8 I + J.
-/
import proofs.«150668_j60876866454165_2_alg».proof.Proof.Gen.KernelIdeal.Frame
import proofs.«150668_j60876866454165_2_alg».proof.Proof.Region1Case
import proofs.«150668_j60876866454165_2_alg».proof.Proof.Region1Point
import proofs.«150668_j60876866454165_2_alg».proof.Proof.LibChunkPrefix

set_option maxRecDepth 16384

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The summands of the first accumulator's row i, over the arrays as the region finds them. -/
abbrev T4 (c : Dev nD) (i j : Fin 8192) : EReal := term (V c main_v1_0) (V c main_v1_1) (V c main_arg2) i j

/-- The summands of the second accumulator's row i. -/
abbrev T5 (c : Dev nD) (i j : Fin 8192) : EReal := term (V c main_v1_0) (V c main_v1_1) (V c main_arg3) i j

/-- At a point with column-block 0 the first accumulator's entry is chunk 0 of the row's summands. -/
theorem step4_A (c : Dev nD) (t : Fin cfg1.N) (h0 : t.val % 8 = 0) (r : Fin 1024) (l : Fin 128) (i : Fin 8192)
    (hi : i.val = 1024 * (t.val / 8) + r.val) :
    (outsAt1 (F := Ideal) V c t.val t.isLt).1 (ix2 r l)
      = ∑ cc : Fin 1024, T4 V c i ⟨1024 * 0 + cc.val, by have := cc.isLt; omega⟩ := by
  rw [outsAt1_A (F := Ideal) V c t h0]
  dsimp only
  rw [out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)]
  refine (point_update (V c main_v1_0) (V c main_v1_1) (V c main_arg2) 0 (by norm_num) (iblk1 V c 0 t) (iblk1 V c 1 t) (iblk1 V c 2 t)
    (k1_pay1 (F := Ideal)) r l i (fun k => blk0_apply V c t r k i hi)
    (fun cc k => blk1_apply V c t cc k _ (by show 1024 * 0 + cc.val = 1024 * (t.val % 8) + cc.val; rw [h0]))
    (fun cc => blk2_apply V c t r cc i _ hi (by show 1024 * 0 + cc.val = 1024 * (t.val % 8) + cc.val; rw [h0]))).trans ?_
  rw [pay1_apply, zero_add]

/-- At a point with column-block J > 0 the first accumulator's entry gains chunk J of the row's summands. -/
theorem step4_B (c : Dev nD) (t : Fin cfg1.N) (h0 : ¬t.val % 8 = 0) (J : ℕ) (hJ : t.val % 8 = J) (hJ8 : 1024 * (J + 1) ≤ 8192)
    (r : Fin 1024) (l : Fin 128) (i : Fin 8192) (hi : i.val = 1024 * (t.val / 8) + r.val) :
    (outsAt1 (F := Ideal) V c t.val t.isLt).1 (ix2 r l)
      = (outsAt1 (F := Ideal) V c (t.val - 1) (Nat.lt_of_le_of_lt (Nat.sub_le _ _) t.isLt)).1 (ix2 r l)
        + ∑ cc : Fin 1024, T4 V c i ⟨1024 * J + cc.val, by have := cc.isLt; omega⟩ := by
  rw [outsAt1_B (F := Ideal) V c t h0]
  dsimp only
  rw [out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t)
    (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2]
  exact point_update (V c main_v1_0) (V c main_v1_1) (V c main_arg2) J hJ8 (iblk1 V c 0 t) (iblk1 V c 1 t) (iblk1 V c 2 t)
    (outsAt1 (F := Ideal) V c (t.val - 1) (Nat.lt_of_le_of_lt (Nat.sub_le _ _) t.isLt)).1 r l i (fun k => blk0_apply V c t r k i hi)
    (fun cc k => blk1_apply V c t cc k _ (by show 1024 * J + cc.val = 1024 * (t.val % 8) + cc.val; rw [hJ]))
    (fun cc => blk2_apply V c t r cc i _ hi (by show 1024 * J + cc.val = 1024 * (t.val % 8) + cc.val; rw [hJ]))

/-- The same two steps for the second accumulator. -/
theorem step5_A (c : Dev nD) (t : Fin cfg1.N) (h0 : t.val % 8 = 0) (r : Fin 1024) (l : Fin 128) (i : Fin 8192)
    (hi : i.val = 1024 * (t.val / 8) + r.val) :
    (outsAt1 (F := Ideal) V c t.val t.isLt).2 (ix2 r l)
      = ∑ cc : Fin 1024, T5 V c i ⟨1024 * 0 + cc.val, by have := cc.isLt; omega⟩ := by
  rw [outsAt1_A (F := Ideal) V c t h0]
  dsimp only
  rw [out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t)]
  refine (point_update' (V c main_v1_0) (V c main_v1_1) (V c main_arg3) 0 (by norm_num) (iblk1 V c 0 t) (iblk1 V c 1 t) (iblk1 V c 3 t)
    (k1_pay2 (F := Ideal)) r l i (fun k => blk0_apply V c t r k i hi)
    (fun cc k => blk1_apply V c t cc k _ (by show 1024 * 0 + cc.val = 1024 * (t.val % 8) + cc.val; rw [h0]))
    (fun cc => blk3_apply V c t r cc i _ hi (by show 1024 * 0 + cc.val = 1024 * (t.val % 8) + cc.val; rw [h0]))).trans ?_
  rw [pay2_apply, zero_add]

theorem step5_B (c : Dev nD) (t : Fin cfg1.N) (h0 : ¬t.val % 8 = 0) (J : ℕ) (hJ : t.val % 8 = J) (hJ8 : 1024 * (J + 1) ≤ 8192)
    (r : Fin 1024) (l : Fin 128) (i : Fin 8192) (hi : i.val = 1024 * (t.val / 8) + r.val) :
    (outsAt1 (F := Ideal) V c t.val t.isLt).2 (ix2 r l)
      = (outsAt1 (F := Ideal) V c (t.val - 1) (Nat.lt_of_le_of_lt (Nat.sub_le _ _) t.isLt)).2 (ix2 r l)
        + ∑ cc : Fin 1024, T5 V c i ⟨1024 * J + cc.val, by have := cc.isLt; omega⟩ := by
  rw [outsAt1_B (F := Ideal) V c t h0]
  dsimp only
  rw [out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t)
    (outsAt1 (F := Ideal) V c (t.val - 1) (Nat.lt_of_le_of_lt (Nat.sub_le _ _) t.isLt)).1 (outsAt1 (F := Ideal) V c (t.val - 1) (Nat.lt_of_le_of_lt (Nat.sub_le _ _) t.isLt)).2]
  exact point_update' (V c main_v1_0) (V c main_v1_1) (V c main_arg3) J hJ8 (iblk1 V c 0 t) (iblk1 V c 1 t) (iblk1 V c 3 t)
    (outsAt1 (F := Ideal) V c (t.val - 1) (Nat.lt_of_le_of_lt (Nat.sub_le _ _) t.isLt)).2 r l i (fun k => blk0_apply V c t r k i hi)
    (fun cc k => blk1_apply V c t cc k _ (by show 1024 * J + cc.val = 1024 * (t.val % 8) + cc.val; rw [hJ]))
    (fun cc => blk3_apply V c t r cc i _ hi (by show 1024 * J + cc.val = 1024 * (t.val % 8) + cc.val; rw [hJ]))

/-- Chunk 0 alone is the guarded sum below 1024. -/
theorem chunk_zero (f : Fin 8192 → EReal) :
    (∑ cc : Fin 1024, f ⟨1024 * 0 + cc.val, by have := cc.isLt; omega⟩)
      = ∑ j : Fin 8192, if j.val < 1024 * (0 + 1) then f j else 0 := by
  have hs := Cert.LibChunkPrefix.prefix_step 1024 0 f (by norm_num)
  rw [Cert.LibChunkPrefix.prefix_zero, zero_add] at hs
  exact hs

/-- THE INVARIANT of the first accumulator: after point n = 8 I + J, entry (r, l) of its block is the sum of the
    summands of row 1024 I + r over the columns below 1024 (J + 1). -/
theorem inv4 (c : Dev nD) (r : Fin 1024) (l : Fin 128) (i : Fin 8192) : ∀ (n : ℕ) (hn : n < cfg1.N),
    i.val = 1024 * (n / 8) + r.val →
    (outsAt1 (F := Ideal) V c n hn).1 (ix2 r l)
      = ∑ j : Fin 8192, if j.val < 1024 * (n % 8 + 1) then T4 V c i j else 0 := by
  intro n
  induction n with
  | zero =>
    intro hn hi
    exact (step4_A V c ⟨0, hn⟩ rfl r l i hi).trans (chunk_zero (T4 V c i))
  | succ n ih =>
    intro hn hi
    have hN : cfg1.N = 64 := N_1
    by_cases h0 : (n + 1) % 8 = 0
    · rw [h0]
      exact (step4_A V c ⟨n + 1, hn⟩ h0 r l i hi).trans (chunk_zero (T4 V c i))
    · have hJ : (n + 1) % 8 = n % 8 + 1 := by omega
      rw [hJ]
      refine (step4_B V c ⟨n + 1, hn⟩ h0 (n % 8 + 1) hJ (by omega) r l i hi).trans ?_
      show (outsAt1 (F := Ideal) V c n _).1 (ix2 r l) + _ = _
      rw [ih (Nat.lt_of_succ_lt hn) (by omega)]
      exact Cert.LibChunkPrefix.prefix_step 1024 (n % 8 + 1) (T4 V c i) (by omega)

/-- THE INVARIANT of the second accumulator. -/
theorem inv5 (c : Dev nD) (r : Fin 1024) (l : Fin 128) (i : Fin 8192) : ∀ (n : ℕ) (hn : n < cfg1.N),
    i.val = 1024 * (n / 8) + r.val →
    (outsAt1 (F := Ideal) V c n hn).2 (ix2 r l)
      = ∑ j : Fin 8192, if j.val < 1024 * (n % 8 + 1) then T5 V c i j else 0 := by
  intro n
  induction n with
  | zero =>
    intro hn hi
    exact (step5_A V c ⟨0, hn⟩ rfl r l i hi).trans (chunk_zero (T5 V c i))
  | succ n ih =>
    intro hn hi
    have hN : cfg1.N = 64 := N_1
    by_cases h0 : (n + 1) % 8 = 0
    · rw [h0]
      exact (step5_A V c ⟨n + 1, hn⟩ h0 r l i hi).trans (chunk_zero (T5 V c i))
    · have hJ : (n + 1) % 8 = n % 8 + 1 := by omega
      rw [hJ]
      refine (step5_B V c ⟨n + 1, hn⟩ h0 (n % 8 + 1) hJ (by omega) r l i hi).trans ?_
      show (outsAt1 (F := Ideal) V c n _).2 (ix2 r l) + _ = _
      rw [ih (Nat.lt_of_succ_lt hn) (by omega)]
      exact Cert.LibChunkPrefix.prefix_step 1024 (n % 8 + 1) (T5 V c i) (by omega)

end Cert.KernelIdeal.Region1

end
-- ==== Proof.Region1.lean ====
/-
  The two accumulator arrays after the similarity stage.

  The block of rows 1024 I .. 1024 I + 1023 is written back once, after the last of its eight points (column-block 7).
  By then the guard "j < 1024 * 8" holds for every column, so entry (r, l) of the block is the whole sum over j of the
  summands of row i = 1024 I + r: exactly the specification's row accumulator, in every one of the 128 lanes. The eight
  row-blocks tile the 8192 rows, so the array ends holding that function of the arrays the stage found.
-/
import proofs.«150668_j60876866454165_2_alg».proof.Proof.Gen.KernelIdeal.Frame
import proofs.«150668_j60876866454165_2_alg».proof.Proof.Region1Inv
import proofs.«150668_j60876866454165_2_alg».proof.Proof.Spec
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What the first accumulator array ends holding: in every lane of row i, the row accumulator of i over the first mask. -/
def G4 (c : Dev nD) : Buf (Elt Ideal) ((c : Thread nD τ).loc main_v2_0) :=
  fun idx : S8192x128.Idx => Cert.Spec.rowAcc (V c main_v1_0) (V c main_v1_1) kap (V c main_arg2) (idx 0)

/-- What the second accumulator array ends holding: the same over the second mask. -/
def G5 (c : Dev nD) : Buf (Elt Ideal) ((c : Thread nD τ).loc main_v2_1) :=
  fun idx : S8192x128.Idx => Cert.Spec.rowAcc (V c main_v1_0) (V c main_v1_1) kap (V c main_arg3) (idx 0)

/-- The block the first accumulator writes back (at a point with column-block 7) is the block of `G4`. -/
theorem flushed4_eq (c : Dev nD) (t : Fin cfg1.N) (hf : (cfg1.win 4).flush t = true) :
    (dat1 (F := Ideal) V c).flushed 4 t = ((cfg1.win 4).blk t).view.read (Elt Ideal) (G4 V c) := by
  have h7 : t.val % 8 = 7 := (flush1_4 t).mp hf
  obtain ⟨-, -, -, -, -, -, -, -, e40, e41, -⟩ := idx_facts t
  show (cfg1.win 4).cut (grid1.coords t) ((dat1 (F := Ideal) V c).after 4 t) = _
  rw [after1_4]
  funext y
  obtain ⟨r, l, rfl⟩ : ∃ (r : Fin 1024) (l : Fin 128), y = ix2 r l := ⟨y 0, y 1, eq_ix2 y⟩
  rw [View.read_apply]
  show (outsAt1 (F := Ideal) V c t.val t.isLt).1 (ix2 r l)
    = ∑ j : Fin 8192, T4 V c ((((cfg1.win 4).blk t).view.emb (ix2 r l)) (0 : Fin 2)) j
  have hi : ((((cfg1.win 4).blk t).view.emb (ix2 r l)) (0 : Fin 2)).val = 1024 * (t.val / 8) + r.val := by
    show win1_4.index t (0 : Fin 2) * 1024 + 1 * r.val = _
    rw [e40]; omega
  rw [inv4 V c r l _ t.val t.isLt hi, h7]
  exact Cert.LibChunkPrefix.prefix_all 1024 (7 + 1) _ (by norm_num)

/-- The same for the second accumulator. -/
theorem flushed5_eq (c : Dev nD) (t : Fin cfg1.N) (hf : (cfg1.win 5).flush t = true) :
    (dat1 (F := Ideal) V c).flushed 5 t = ((cfg1.win 5).blk t).view.read (Elt Ideal) (G5 V c) := by
  have h7 : t.val % 8 = 7 := (flush1_5 t).mp hf
  obtain ⟨-, -, -, -, -, -, -, -, -, -, e50, e51⟩ := idx_facts t
  show (cfg1.win 5).cut (grid1.coords t) ((dat1 (F := Ideal) V c).after 5 t) = _
  rw [after1_5]
  funext y
  obtain ⟨r, l, rfl⟩ : ∃ (r : Fin 1024) (l : Fin 128), y = ix2 r l := ⟨y 0, y 1, eq_ix2 y⟩
  rw [View.read_apply]
  show (outsAt1 (F := Ideal) V c t.val t.isLt).2 (ix2 r l)
    = ∑ j : Fin 8192, T5 V c ((((cfg1.win 5).blk t).view.emb (ix2 r l)) (0 : Fin 2)) j
  have hi : ((((cfg1.win 5).blk t).view.emb (ix2 r l)) (0 : Fin 2)).val = 1024 * (t.val / 8) + r.val := by
    show win1_5.index t (0 : Fin 2) * 1024 + 1 * r.val = _
    rw [e50]; omega
  rw [inv5 V c r l _ t.val t.isLt hi, h7]
  exact Cert.LibChunkPrefix.prefix_all 1024 (7 + 1) _ (by norm_num)

/-- An index of the first accumulator array is in point t's block iff each coordinate is in the block's range. -/
theorem mem_blk4 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v2_0).slice (win1_4.rect t)).set ↔ _
  rw [View.set_slice_whole, Rect.mem_set_unit]
  exact Iff.rfl

theorem mem_blk5 (t : Fin cfg1.N) (i : S8192x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v2_1).slice (win1_5.rect t)).set ↔ _
  rw [View.set_slice_whole, Rect.mem_set_unit]
  exact Iff.rfl

/-- Row i lies in the block written back at the last point of its row-block, point 8 (i / 1024) + 7. -/
theorem cover4 (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  obtain ⟨-, -, -, -, -, -, -, -, e40, e41, -⟩ := idx_facts t
  refine ⟨t, (flush1_4 t).mpr (by omega), ?_⟩
  rw [mem_blk4]
  intro a
  match a with
  | ⟨0, _⟩ =>
    show win1_4.index t (0 : Fin 2) * 1024 ≤ (i 0).val ∧ (i 0).val < win1_4.index t (0 : Fin 2) * 1024 + 1024
    rw [e40]; omega
  | ⟨1, _⟩ =>
    show win1_4.index t (1 : Fin 2) * 128 ≤ (i 1).val ∧ (i 1).val < win1_4.index t (1 : Fin 2) * 128 + 128
    rw [e41]; omega

theorem cover5 (i : S8192x128.Idx) :
    ∃ t : Fin cfg1.N, (cfg1.win 5).flush t = true ∧ i ∈ ((cfg1.win 5).blk t).view.set := by
  have hi0 : (i 0).val < 8192 := (i 0).isLt
  have hi1 : (i 1).val < 128 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  obtain ⟨-, -, -, -, -, -, -, -, -, -, e50, e51⟩ := idx_facts t
  refine ⟨t, (flush1_5 t).mpr (by omega), ?_⟩
  rw [mem_blk5]
  intro a
  match a with
  | ⟨0, _⟩ =>
    show win1_5.index t (0 : Fin 2) * 1024 ≤ (i 0).val ∧ (i 0).val < win1_5.index t (0 : Fin 2) * 1024 + 1024
    rw [e50]; omega
  | ⟨1, _⟩ =>
    show win1_5.index t (1 : Fin 2) * 128 ≤ (i 1).val ∧ (i 1).val < win1_5.index t (1 : Fin 2) * 128 + 128
    rw [e51]; omega

/-- The first accumulator array after the stage. -/
theorem final4 (c : Dev nD) : (dat1 (F := Ideal) V c).arrAt 4 cfg1.N = G4 V c :=
  (dat1 (F := Ideal) V c).arrAt_eq_of_cover 4 (G4 V c) (flushed4_eq V c) (cover4)

/-- The second accumulator array after the stage. -/
theorem final5 (c : Dev nD) : (dat1 (F := Ideal) V c).arrAt 5 cfg1.N = G5 V c :=
  (dat1 (F := Ideal) V c).arrAt_eq_of_cover 5 (G5 V c) (flushed5_eq V c) (cover5)

/-- AFTER THE STAGE every lane l of row i of the first accumulator holds
    sum_j exp((sum_k z1[i,k] * z2[j,k]) * inv_tau) * pos[i,j], over the arrays the stage found. -/
theorem out4 (c : Dev nD) (i : Fin 8192) (l : Fin 128) :
    (dat1 (F := Ideal) V c).arrAt 4 cfg1.N (ix2 i l)
      = Cert.Spec.rowAcc (V c main_v1_0) (V c main_v1_1)
          (Named.named (F := Ideal) κ "inv_tau" (φ := .f32) 0x3FA00000#32) (V c main_arg2) i :=
  congrFun (final4 V c) (ix2 i l)

/-- AFTER THE STAGE every lane l of row i of the second accumulator holds the same sum over the second mask. -/
theorem out5 (c : Dev nD) (i : Fin 8192) (l : Fin 128) :
    (dat1 (F := Ideal) V c).arrAt 5 cfg1.N (ix2 i l)
      = Cert.Spec.rowAcc (V c main_v1_0) (V c main_v1_1)
          (Named.named (F := Ideal) κ "inv_tau" (φ := .f32) 0x3FA00000#32) (V c main_arg3) i :=
  congrFun (final5 V c) (ix2 i l)

end Cert.KernelIdeal.Region1

end
-- ==== Proof.KernelValue.lean ====
/-
  The idealized kernel's value. Chaining what each stage finds with what each stage leaves: the first region writes, for
  each view, the activated projection with every row divided by its Euclidean norm; the second region accumulates, in
  every lane of row i, the sum over all columns j of exp(cosine(i, j) * c) times a mask entry, c the named scale constant,
  which denotes the reciprocal of the reference's temperature word; the host sums the lanes, divides by 128, and returns
  the negated logarithm of P / (P + N). So the result buffer ends at one function `G` of the six argument arrays.
-/
import proofs.«150668_j60876866454165_2_alg».proof.Proof.NamedRun
import proofs.«150668_j60876866454165_2_alg».proof.Proof.HostTail
import proofs.«150668_j60876866454165_2_alg».proof.Proof.Through
import proofs.«150668_j60876866454165_2_alg».proof.Proof.Spec
import proofs.«150668_j60876866454165_2_alg».proof.Proof.Region0
import proofs.«150668_j60876866454165_2_alg».proof.Proof.Region1
import Idealize.ShloMosaic.PureOps.IdealRules

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The named scale constant denotes the reciprocal of the reference's temperature word, by the certificate's table. -/
theorem inv_tau : Named.named (F := Ideal) κ "inv_tau" (φ := .f32) 0x3FA00000#32 = ((16777216 / 13421773 : ℝ) : EReal) :=
  IdealRules.named_const.ideal_named_scalar _ _ _ _ rfl

/-- The bias as the specification takes it: entry k of the launched bias. -/
abbrev bias (c : Dev nD) : Fin 512 → EReal := fun k => m ((c : Thread nD τ).loc main_arg5) (ix1 k)

theorem bias_row (c : Dev nD) : (fun k' => V1 (F := Ideal) m ρ c main_v0 (ix2 (0 : Fin 1) k')) = bias m c :=
  funext fun k' => Through.V1_bias m ρ c k'

/-- The first region leaves the first view's normalised projection in its first output array. -/
theorem z1_eq (c : Dev nD) : (V2 (F := Ideal) m ρ c main_v1_0 : Cert.Spec.Sx.Idx → EReal)
    = Cert.Spec.zhatArr (m ((c : Thread nD τ).loc main_arg0)) (m ((c : Thread nD τ).loc main_arg4)) (bias m c) := by
  funext idx
  obtain ⟨i, k, rfl⟩ : ∃ (i : Fin 8192) (k : Fin 512), idx = ix2 i k := ⟨idx 0, idx 1, eq_ix2 idx⟩
  refine (congrFun (Through.V2_z1 m ρ c) (ix2 i k)).trans ((Region0.out4 (V1 (F := Ideal) m ρ) c i k).trans ?_)
  rw [Through.V1_main_arg0, Through.V1_main_arg4, bias_row]
  rfl

/-- … and the second view's in its second. -/
theorem z2_eq (c : Dev nD) : (V2 (F := Ideal) m ρ c main_v1_1 : Cert.Spec.Sx.Idx → EReal)
    = Cert.Spec.zhatArr (m ((c : Thread nD τ).loc main_arg1)) (m ((c : Thread nD τ).loc main_arg4)) (bias m c) := by
  funext idx
  obtain ⟨i, k, rfl⟩ : ∃ (i : Fin 8192) (k : Fin 512), idx = ix2 i k := ⟨idx 0, idx 1, eq_ix2 idx⟩
  refine (congrFun (Through.V2_z2 m ρ c) (ix2 i k)).trans ((Region0.out5 (V1 (F := Ideal) m ρ) c i k).trans ?_)
  rw [Through.V1_main_arg1, Through.V1_main_arg4, bias_row]
  rfl

/-- The second region leaves, in every lane of row i of its first accumulator, the similarities of row i weighted by the
    first mask and summed over all columns. -/
theorem accP_eq (c : Dev nD) : (W3 (F := Ideal) m ρ c (Proc.devRef .tc main_v2_0) : Cert.Spec.Sacc.Idx → EReal)
    = fun idx => Cert.Spec.rowAcc
        (Cert.Spec.zhatArr (m ((c : Thread nD τ).loc main_arg0)) (m ((c : Thread nD τ).loc main_arg4)) (bias m c))
        (Cert.Spec.zhatArr (m ((c : Thread nD τ).loc main_arg1)) (m ((c : Thread nD τ).loc main_arg4)) (bias m c))
        ((16777216 / 13421773 : ℝ) : EReal) (m ((c : Thread nD τ).loc main_arg2)) (idx 0) := by
  funext idx
  obtain ⟨i, l, rfl⟩ : ∃ (i : Fin 8192) (l : Fin 128), idx = ix2 i l := ⟨idx 0, idx 1, eq_ix2 idx⟩
  refine (congrFun (Through.acc_pos m ρ c) (ix2 i l)).trans ((Region1.out4 (V2 (F := Ideal) m ρ) c i l).trans ?_)
  rw [z1_eq, z2_eq, Through.V2_main_arg2, inv_tau]
  rfl

/-- … and in its second accumulator the same with the second mask. -/
theorem accN_eq (c : Dev nD) : (W3 (F := Ideal) m ρ c (Proc.devRef .tc main_v2_1) : Cert.Spec.Sacc.Idx → EReal)
    = fun idx => Cert.Spec.rowAcc
        (Cert.Spec.zhatArr (m ((c : Thread nD τ).loc main_arg0)) (m ((c : Thread nD τ).loc main_arg4)) (bias m c))
        (Cert.Spec.zhatArr (m ((c : Thread nD τ).loc main_arg1)) (m ((c : Thread nD τ).loc main_arg4)) (bias m c))
        ((16777216 / 13421773 : ℝ) : EReal) (m ((c : Thread nD τ).loc main_arg3)) (idx 0) := by
  funext idx
  obtain ⟨i, l, rfl⟩ : ∃ (i : Fin 8192) (l : Fin 128), idx = ix2 i l := ⟨idx 0, idx 1, eq_ix2 idx⟩
  refine (congrFun (Through.acc_neg m ρ c) (ix2 i l)).trans ((Region1.out5 (V2 (F := Ideal) m ρ) c i l).trans ?_)
  rw [z1_eq, z2_eq, Through.V2_main_arg3, inv_tau]
  rfl
/-- The kernel's result as a function of the argument arrays. -/
def G (x1 x2 : Cert.Spec.Sx.Idx → EReal) (p q : Cert.Spec.Sm.Idx → EReal) (W : Cert.Spec.Sw.Idx → EReal) (b : Fin 512 → EReal) : EReal :=
  Cert.Spec.kernelResult
    (fun idx => Cert.Spec.rowAcc (Cert.Spec.zhatArr x1 W b) (Cert.Spec.zhatArr x2 W b) ((16777216 / 13421773 : ℝ) : EReal) p (idx 0))
    (fun idx => Cert.Spec.rowAcc (Cert.Spec.zhatArr x1 W b) (Cert.Spec.zhatArr x2 W b) ((16777216 / 13421773 : ℝ) : EReal) q (idx 0))
    (Ideal.ofBits .f32 0x43000000#32)

/-- The idealized kernel's run: every weakly fair execution ends with the result at `G` of the argument arrays and the
    arguments as launched. -/
theorem run : θ_run (defs (F := Ideal)) (onTc (τ := τ) (main (F := Ideal))) ⟨m, fun _ => 0, ρ⟩ (fun r => ∀ c : Dev nD,
      r.2.mem ((c.tc : Thread nD τ).loc main_v10) = (fun _ => G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (fun k => m ((c.tc : Thread nD τ).loc main_arg5) (ix1 k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (by
      rw [Tail.result m ρ c, accP_eq m ρ c, accN_eq m ρ c]; rfl), (h c).2⟩)
    (Named.run_named (F := Ideal) m ρ)

end Cert.KernelIdeal.Value

end
-- ==== Proof.RefTerm.lean ====
/-
  The reference's value as one term.

  Six array functions, each the composition of the array operations one stage of the reference applies, in the
  order it applies them:
    linV   the projection: the matrix product of a view with the transposed weights, plus the bias spread down the rows;
    eluV   ELU as the reference spells it: select(y > 0, y, 1 * expm1(select(y > 0, 0, y)));
    normV  the row norms as a column: the square root of the row sums of the squares;
    simV   the similarity matrix: the product of the first activations with the transposed second ones, divided
           by the outer product of the two norm columns and by the temperature, exponentiated;
    lossV  minus the logarithm of the quotient of the two masked total sums;
    outV   their composition, the reference's result as a function of its six arguments.
  They are stated over any float values; the reading on the extended reals is a separate matter.
-/
import proofs.«150668_j60876866454165_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The projection x W^T + b, as the reference's five array operations compose. -/
def linV (x : (⟨S8192x512, .f32⟩ : BufTy).Contents (Elt F)) (W : (⟨S512x512, .f32⟩ : BufTy).Contents (Elt F)) (b : (⟨S512, .f32⟩ : BufTy).Contents (Elt F)) : (⟨S8192x512, .f32⟩ : BufTy).Contents (Elt F) :=
  addf (Host.dotGeneral dot_S8192x512_S512x512_S8192x512_1_0_0_1_n_n none x
      (transpose S512x512 [1, 0] W transposes_S512x512_S512x512_1_0))
    (broadcastInDim S8192x512 ![0, 1] bcast_S1x512_S8192x512_0_1 (broadcastInDim S1x512 ![1] bcast_S512_S1x512_1 b))

/-- ELU as the reference spells it: where y > 0 the entry itself, elsewhere one times expm1 of the entry (the inner
    select replaces the positive entries by zero before expm1 is taken). -/
def eluV (y : (⟨S8192x512, .f32⟩ : BufTy).Contents (Elt F)) : (⟨S8192x512, .f32⟩ : BufTy).Contents (Elt F) :=
  select (cmpf .ogt y (broadcastInDim S8192x512 ![] bcast_S_S8192x512 (constant S_ .f32 0x00000000#32))) y
    (mulf (broadcastInDim S8192x512 ![] bcast_S_S8192x512 (constant S_ .f32 0x3F800000#32))
      (Host.expm1 (select (cmpf .ogt y (broadcastInDim S8192x512 ![] bcast_S_S8192x512 (constant S_ .f32 0x00000000#32)))
        (broadcastInDim S8192x512 ![] bcast_S_S8192x512 (id (constant S_ .f32 0x00000000#32))) y)))

/-- The Euclidean norms of the rows, as a column. -/
def normV (z : (⟨S8192x512, .f32⟩ : BufTy).Contents (Elt F)) : (⟨S8192x1, .f32⟩ : BufTy).Contents (Elt F) :=
  Host.sqrt (broadcastInDim S8192x1 ![0] bcast_S8192_S8192x1_0
    (Host.reduceAdd (mulf z z) (constant S_ .f32 0x00000000#32) reducesTo_S8192x512_S8192_d1 h_S_))

/-- The similarity matrix of two activated views. -/
def simV (z1 z2 : (⟨S8192x512, .f32⟩ : BufTy).Contents (Elt F)) : (⟨S8192x8192, .f32⟩ : BufTy).Contents (Elt F) :=
  Host.exp (Host.divf
    (Host.divf
      (Host.dotGeneral dot_S8192x512_S512x8192_S8192x8192_1_0_0_1_n_n none z1
        (transpose S512x8192 [1, 0] z2 transposes_S8192x512_S512x8192_1_0))
      (Host.dotGeneral dot_S8192x1_S1x8192_S8192x8192_1_0_0_1_n_n none (normV z1)
        (transpose S1x8192 [1, 0] (normV z2) transposes_S8192x1_S1x8192_1_0)))
    (broadcastInDim S8192x8192 ![] bcast_S_S8192x8192 (constant S_ .f32 0x3F4CCCCD#32)))

/-- Minus the logarithm of the masked sum over the sum of both masked sums. -/
def lossV (s p q : (⟨S8192x8192, .f32⟩ : BufTy).Contents (Elt F)) : (⟨S_, .f32⟩ : BufTy).Contents (Elt F) :=
  Host.negf (Host.log (Host.divf
    (Host.reduceAdd (mulf s p) (constant S_ .f32 0x00000000#32) reducesTo_S8192x8192_S_d0_1 h_S_)
    (Host.reduceAdd (addf (mulf s p) (mulf s q)) (constant S_ .f32 0x00000000#32) reducesTo_S8192x8192_S_d0_1 h_S_)))

/-- The reference's result as a function of its six argument arrays. -/
def outV (x1 x2 : (⟨S8192x512, .f32⟩ : BufTy).Contents (Elt F)) (p q : (⟨S8192x8192, .f32⟩ : BufTy).Contents (Elt F)) (W : (⟨S512x512, .f32⟩ : BufTy).Contents (Elt F)) (b : (⟨S512, .f32⟩ : BufTy).Contents (Elt F)) : (⟨S_, .f32⟩ : BufTy).Contents (Elt F) :=
  lossV (simV (eluV (linV x1 W b)) (eluV (linV x2 W b))) p q

end Cert.ReferenceIdeal.RefValue

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.RefRun.lean ====
/-
  The run of the reference program.

  The reference is a straight line of sixty-nine array operations once its four calls are replaced by the bodies
  they stand for: two affine projections x W^T + b, each followed by the thirteen operations of ELU (two of them
  again the bodies of a select with a scalar and of a plain select), two row norms of five operations each, and a
  tail that forms the matrix of cosines over the temperature, exponentiates it, weighs it by the two masks, sums
  both over all entries and takes minus the logarithm of the quotient.  Running the operations in order from any
  memory leaves in every buffer the composition of the operations that wrote it, applied to the six argument
  arrays; the arguments themselves are never written.  This module lists the operations, shows the program is that
  list, and reads the composition off as one closed term built from four small array functions
  (projection, ELU, row norm, and the tail), the functions of the module imported first.
-/
import proofs.«150668_j60876866454165_2_alg».proof.Proof.RefTerm
import proofs.«150668_j60876866454165_2_alg».proof.Proof.LibTRefCast
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The sixty-nine operations of the reference in order, each call replaced by the operations of the function called,
    over the buffers that call owns. -/
abbrev ops : List (HloOp τ sig (Elt F)) :=
  [unary main_arg4 main_v0 ((transpose S512x512 [1, 0] · transposes_S512x512_S512x512_1_0) : (⟨S512x512, .f32⟩ : BufTy).Contents (Elt F) → (⟨S512x512, .f32⟩ : BufTy).Contents (Elt F)),
    binary main_arg0 main_v0 main_v1 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg5 main_v2 (broadcastInDim S1x512 ![1] bcast_S512_S1x512_1 : (⟨S512, .f32⟩ : BufTy).Contents (Elt F) → (⟨S1x512, .f32⟩ : BufTy).Contents (Elt F)),
    unary main_v2 main_v3 (broadcastInDim S8192x512 ![0, 1] bcast_S1x512_S8192x512_0_1 : (⟨S1x512, .f32⟩ : BufTy).Contents (Elt F) → (⟨S8192x512, .f32⟩ : BufTy).Contents (Elt F)),
    binary main_v1 main_v3 main_v4 (addf : (⟨S8192x512, .f32⟩ : BufTy).Contents (Elt F) → (⟨S8192x512, .f32⟩ : BufTy).Contents (Elt F) → (⟨S8192x512, .f32⟩ : BufTy).Contents (Elt F)),
    TRef.nullary main_call0.cst (constant S_ .f32 0x00000000#32),
    TRef.unary main_call0.cst main_call0.v0 (broadcastInDim S8192x512 ![] bcast_S_S8192x512),
    TRef.binary (.of main_v4) main_call0.v0 main_call0.v1 (cmpf .ogt),
    TRef.nullary main_call0.cst_0 (constant S_ .f32 0x00000000#32),
    TRef.unary main_call0.cst_0 main_call0.v2 (broadcastInDim S8192x512 ![] bcast_S_S8192x512),
    TRef.binary (.of main_v4) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S8192x512 ![] bcast_S_S8192x512),
    TRef.ternary main_call0.v3 main_call0.call0.v1 (.of main_v4) main_call0.call0.v2 select,
    TRef.unary main_call0.call0.v2 main_call0.v5 Host.expm1,
    TRef.nullary main_call0.cst_2 (constant S_ .f32 0x3F800000#32),
    TRef.unary main_call0.cst_2 main_call0.v6 (broadcastInDim S8192x512 ![] bcast_S_S8192x512),
    TRef.binary main_call0.v6 main_call0.v5 main_call0.v7 mulf,
    TRef.ternary main_call0.v1 (.of main_v4) main_call0.v7 main_call0.call1.v0 select,
    unary main_arg4 main_v6 ((transpose S512x512 [1, 0] · transposes_S512x512_S512x512_1_0) : (⟨S512x512, .f32⟩ : BufTy).Contents (Elt F) → (⟨S512x512, .f32⟩ : BufTy).Contents (Elt F)),
    binary main_arg1 main_v6 main_v7 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_arg5 main_v8 (broadcastInDim S1x512 ![1] bcast_S512_S1x512_1 : (⟨S512, .f32⟩ : BufTy).Contents (Elt F) → (⟨S1x512, .f32⟩ : BufTy).Contents (Elt F)),
    unary main_v8 main_v9 (broadcastInDim S8192x512 ![0, 1] bcast_S1x512_S8192x512_0_1 : (⟨S1x512, .f32⟩ : BufTy).Contents (Elt F) → (⟨S8192x512, .f32⟩ : BufTy).Contents (Elt F)),
    binary main_v7 main_v9 main_v10 (addf : (⟨S8192x512, .f32⟩ : BufTy).Contents (Elt F) → (⟨S8192x512, .f32⟩ : BufTy).Contents (Elt F) → (⟨S8192x512, .f32⟩ : BufTy).Contents (Elt F)),
    TRef.nullary main_call1.cst (constant S_ .f32 0x00000000#32),
    TRef.unary main_call1.cst main_call1.v0 (broadcastInDim S8192x512 ![] bcast_S_S8192x512),
    TRef.binary (.of main_v10) main_call1.v0 main_call1.v1 (cmpf .ogt),
    TRef.nullary main_call1.cst_0 (constant S_ .f32 0x00000000#32),
    TRef.unary main_call1.cst_0 main_call1.v2 (broadcastInDim S8192x512 ![] bcast_S_S8192x512),
    TRef.binary (.of main_v10) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S8192x512 ![] bcast_S_S8192x512),
    TRef.ternary main_call1.v3 main_call1.call0.v1 (.of main_v10) main_call1.call0.v2 select,
    TRef.unary main_call1.call0.v2 main_call1.v5 Host.expm1,
    TRef.nullary main_call1.cst_2 (constant S_ .f32 0x3F800000#32),
    TRef.unary main_call1.cst_2 main_call1.v6 (broadcastInDim S8192x512 ![] bcast_S_S8192x512),
    TRef.binary main_call1.v6 main_call1.v5 main_call1.v7 mulf,
    TRef.ternary main_call1.v1 (.of main_v10) main_call1.v7 main_call1.call1.v0 select,
    TRef.binary (.of main_v5) (.of main_v5) main_call2.v0 mulf,
    TRef.nullary main_call2.cst (constant S_ .f32 0x00000000#32),
    TRef.binary main_call2.v0 main_call2.cst main_call2.v1 (fun x v => Host.reduceAdd x v reducesTo_S8192x512_S8192_d1 h_S_),
    TRef.unary main_call2.v1 main_call2.v2 (broadcastInDim S8192x1 ![0] bcast_S8192_S8192x1_0),
    TRef.unary main_call2.v2 main_call2.v3 Host.sqrt,
    TRef.binary (.of main_v11) (.of main_v11) main_call3.v0 mulf,
    TRef.nullary main_call3.cst (constant S_ .f32 0x00000000#32),
    TRef.binary main_call3.v0 main_call3.cst main_call3.v1 (fun x v => Host.reduceAdd x v reducesTo_S8192x512_S8192_d1 h_S_),
    TRef.unary main_call3.v1 main_call3.v2 (broadcastInDim S8192x1 ![0] bcast_S8192_S8192x1_0),
    TRef.unary main_call3.v2 main_call3.v3 Host.sqrt,
    unary main_v11 main_v14 ((transpose S512x8192 [1, 0] · transposes_S8192x512_S512x8192_1_0) : (⟨S8192x512, .f32⟩ : BufTy).Contents (Elt F) → (⟨S512x8192, .f32⟩ : BufTy).Contents (Elt F)),
    binary main_v5 main_v14 main_v15 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    unary main_v13 main_v16 ((transpose S1x8192 [1, 0] · transposes_S8192x1_S1x8192_1_0) : (⟨S8192x1, .f32⟩ : BufTy).Contents (Elt F) → (⟨S1x8192, .f32⟩ : BufTy).Contents (Elt F)),
    binary main_v12 main_v16 main_v17 ((fun l r => Host.dotGeneral dot_S8192x1_S1x8192_S8192x8192_1_0_0_1_n_n none l r) : (⟨S8192x1, .f32⟩ : BufTy).Contents (Elt F) → (⟨S1x8192, .f32⟩ : BufTy).Contents (Elt F) → (⟨S8192x8192, .f32⟩ : BufTy).Contents (Elt F)),
    binary main_v15 main_v17 main_v18 (Host.divf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3F4CCCCD#32),
    unary main_cst main_v19 (broadcastInDim S8192x8192 ![] bcast_S_S8192x8192 : (⟨S_, .f32⟩ : BufTy).Contents (Elt F) → (⟨S8192x8192, .f32⟩ : BufTy).Contents (Elt F)),
    binary main_v18 main_v19 main_v20 (Host.divf : (⟨S8192x8192, .f32⟩ : BufTy).Contents (Elt F) → (⟨S8192x8192, .f32⟩ : BufTy).Contents (Elt F) → (⟨S8192x8192, .f32⟩ : BufTy).Contents (Elt F)),
    unary main_v20 main_v21 (Host.exp : (⟨S8192x8192, .f32⟩ : BufTy).Contents (Elt F) → (⟨S8192x8192, .f32⟩ : BufTy).Contents (Elt F)),
    binary main_v21 main_arg2 main_v22 (mulf : (⟨S8192x8192, .f32⟩ : BufTy).Contents (Elt F) → (⟨S8192x8192, .f32⟩ : BufTy).Contents (Elt F) → (⟨S8192x8192, .f32⟩ : BufTy).Contents (Elt F)),
    binary main_v21 main_arg3 main_v23 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    binary main_v22 main_cst_0 main_v24 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v22 main_v23 main_v25 (addf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    binary main_v25 main_cst_1 main_v26 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v24 main_v26 main_v27 (Host.divf : (⟨S_, .f32⟩ : BufTy).Contents (Elt F) → (⟨S_, .f32⟩ : BufTy).Contents (Elt F) → (⟨S_, .f32⟩ : BufTy).Contents (Elt F)),
    unary main_v27 main_v28 (Host.log : (⟨S_, .f32⟩ : BufTy).Contents (Elt F) → (⟨S_, .f32⟩ : BufTy).Contents (Elt F)),
    unary main_v28 main_v29 (Host.negf : (⟨S_, .f32⟩ : BufTy).Contents (Elt F) → (⟨S_, .f32⟩ : BufTy).Contents (Elt F)) ]

-- the two sides are the same chain of steps once the calls are unfolded and sequencing computes; the chain is long
set_option maxRecDepth 8192 in
/-- The program is that straight line: with the called functions unfolded at their calls, both sides are one chain
    of steps, by computation. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., nullary_bufs_sub ..,
    binary_bufs_sub .., unary_bufs_sub .., unary_bufs_sub .., binary_bufs_sub .., nullary_bufs_sub .., binary_bufs_sub ..,
    unary_bufs_sub .., unary_bufs_sub .., unary_bufs_sub .., binary_bufs_sub .., unary_bufs_sub .., binary_bufs_sub ..,
    binary_bufs_sub .., nullary_bufs_sub .., unary_bufs_sub .., binary_bufs_sub .., unary_bufs_sub .., binary_bufs_sub ..,
    binary_bufs_sub .., nullary_bufs_sub .., binary_bufs_sub .., binary_bufs_sub .., nullary_bufs_sub .., binary_bufs_sub ..,
    binary_bufs_sub .., unary_bufs_sub .., unary_bufs_sub ..⟩

set_option maxRecDepth 8192 in
set_option maxHeartbeats 1000000 in
/-- The contents of the result buffer after the sixty-nine operations, from any contents: each operation's result
    read at the buffer it writes and every other buffer left as it was, the composition is the closed term of
    the six arguments' contents. -/
theorem out_eq (V : Valuation τ sig (Elt F)) :
    after ops V (main_v29 : DevRef τ sig)
      = outV (V (main_arg0 : DevRef τ sig)) (V (main_arg1 : DevRef τ sig)) (V (main_arg2 : DevRef τ sig)) (V (main_arg3 : DevRef τ sig)) (V (main_arg4 : DevRef τ sig)) (V (main_arg5 : DevRef τ sig)) := by
  after_results_simp
  simp only [Cert.Lib.ofBuf_toBuf, Cert.Lib.toBuf_ofBuf, TRef.ofBuf, TRef.toBuf, cast_eq, outV, lossV, simV, normV, eluV, linV]

/-- Argument 0 is never written. -/
theorem arg0_eq (V : Valuation τ sig (Elt F)) :
    after ops V (main_arg0 : DevRef τ sig) = V (main_arg0 : DevRef τ sig) := by
  after_results_simp

/-- Argument 1 is never written. -/
theorem arg1_eq (V : Valuation τ sig (Elt F)) :
    after ops V (main_arg1 : DevRef τ sig) = V (main_arg1 : DevRef τ sig) := by
  after_results_simp

/-- Argument 2 is never written. -/
theorem arg2_eq (V : Valuation τ sig (Elt F)) :
    after ops V (main_arg2 : DevRef τ sig) = V (main_arg2 : DevRef τ sig) := by
  after_results_simp

/-- Argument 3 is never written. -/
theorem arg3_eq (V : Valuation τ sig (Elt F)) :
    after ops V (main_arg3 : DevRef τ sig) = V (main_arg3 : DevRef τ sig) := by
  after_results_simp

/-- Argument 4 is never written. -/
theorem arg4_eq (V : Valuation τ sig (Elt F)) :
    after ops V (main_arg4 : DevRef τ sig) = V (main_arg4 : DevRef τ sig) := by
  after_results_simp

/-- Argument 5 is never written. -/
theorem arg5_eq (V : Valuation τ sig (Elt F)) :
    after ops V (main_arg5 : DevRef τ sig) = V (main_arg5 : DevRef τ sig) := by
  after_results_simp

/-- On every device, for any float values, from any memory with zero counters: every weakly fair execution of the
    reference terminates with the result buffer at the closed term of the six arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = outV (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v29).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue

end
-- ==== Proof.LibRowCol.lean ====
/-
  Two column forms read at an index.

  * An `[a, 1]` column transposed to a `[1, a]` row reads, at `(0, j)`, the column's entry `j`.
  * A sum of an `[a, 1]` column over its first axis, on the extended reals, is the sum of the column's entries.

  With a row spread down the rows and a per-row quantity cast to a column they read a per-column quantity spread over
  all rows, and a column of per-row sums added up.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib

open Idealize.ShloMosaic Idealize.ShloMosaic.ValueIdx

variable {α : Type}

/-- An `[a, 1]` column transposed to a `[1, a]` row reads, at `(u, j)`, the operand at `(j, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (j : Fin a) :
    transpose ⟨2, ![1, a]⟩ [1, 0] x h (ix2 u j) = x (ix2 j (0 : Fin 1)) := by
  refine transpose_apply [1, 0] x h (ix2 u j) (ix2 j (0 : Fin 1)) fun b => ?_
  match b with
  | ⟨0, _⟩ =>
    show (0 : ℕ) = u.val
    have := u.isLt; omega
  | ⟨1, _⟩ => rfl

/-- Over the one result index, the source index with `k` on the reduced first axis of a column is `(k, 0)`. -/
theorem lift_col {a : ℕ} (h : (⟨2, ![a, 1]⟩ : Shape).Reduces [0] ⟨1, ![1]⟩) (u : Fin 1) (k : Fin a) :
    h.lift (ix1 u) k = ix2 k (0 : Fin 1) := by
  funext c
  apply Fin.ext
  match c with
  | ⟨0, _⟩ => rfl
  | ⟨1, hc⟩ =>
    have h1 : ((h.lift (ix1 u) k) ⟨1, hc⟩).val < 1 := ((h.lift (ix1 u) k) ⟨1, hc⟩).isLt
    show ((h.lift (ix1 u) k) ⟨1, hc⟩).val = 0
    omega

/-- A column sum: the sum of the column's entries. -/
theorem multiReduction_add_col {a : ℕ} {φ : FTy} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ X acc h hφ hacc (ix1 u) = ∑ k : Fin a, X (ix2 k (0 : Fin 1)) := by
  refine (Ideal.multiReduction_add_single X acc h hφ hacc (ix1 u)).trans ?_
  exact Finset.sum_congr rfl fun k _ => congrArg X (lift_col h u k)

end Cert.Lib

end
-- ==== Proof.RefRead.lean ====
/-
  The reference's value read on the extended reals.

  Index by index, the six array functions that compose the reference's result are the formulas of the shared
  specification:
    * the projection at (i, k) is the sum over c of x[i,c] * W[k,c], plus b[k]: the product with the transposed
      weights reads the weights at the swapped index, and the bias spread over a new leading axis and then down
      the rows reads b[k] on every row;
    * the reference's select(y > 0, y, 1 * expm1(select(y > 0, 0, y))) is ELU on every extended real: where
      0 < y both selects take their first branch and the result is y; elsewhere the inner select is y itself,
      expm1 y is exp y - 1, and the factor is the word of 1.0;
    * a row's norm is the square root of zero plus the sum of the squares over the row, and zero plus a sum is the sum;
    * the product of the norm column with the transposed norm column contracts over a single index, so its
      (i, j) entry is the one product nrm_i * nrm_j; the similarity at (i, j) is therefore
      exp ((sum_k z1[i,k] * z2[j,k]) / (nrm_i * nrm_j) / D);
    * a sum over both axes of a square array, from the zero word, is the double sum over rows and columns.
  Nothing is assumed of the entries: every step is an identity of extended reals.  With the run of the program, which
  ends with the result buffer at the composed term, this gives the reference's half of the equivalence: every
  execution ends with the result at the specification's value of the six argument arrays, the temperature kept as
  the word the program carries.
-/
import proofs.«150668_j60876866454165_2_alg».proof.Proof.RefTerm
import proofs.«150668_j60876866454165_2_alg».proof.Proof.RefRun
import proofs.«150668_j60876866454165_2_alg».proof.Proof.Spec
import proofs.«150668_j60876866454165_2_alg».proof.Proof.LibPlainDot
import proofs.«150668_j60876866454165_2_alg».proof.Proof.LibRowCol
import proofs.«150668_j60876866454165_2_alg».proof.Proof.LibRealEntries
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem
  Idealize.ShloMosaic.StableHlo

/-- A scalar spread over the 8192 x 512 array reads the scalar everywhere. -/
theorem splat_apply (v : FVec Ideal S_ .f32) (j : S8192x512.Idx) :
    broadcastInDim S8192x512 ![] bcast_S_S8192x512 v j = v ix0 :=
  broadcastInDim_apply ![] bcast_S_S8192x512 v j ix0 fun a => a.elim0

/-- The projection at row i, feature k. -/
theorem linV_apply (x : FVec Ideal S8192x512 .f32) (W : FVec Ideal S512x512 .f32) (b : FVec Ideal S512 .f32) (i : Fin 8192) (k : Fin 512) :
    linV (F := Ideal) x W b (ix2 i k) = Cert.Spec.lin x W (fun c => b (ix1 c)) i k := by
  unfold linV Cert.Spec.lin
  rw [addf_apply]
  congr 1
  · refine (Cert.Lib.plain_dotGeneral_apply 8192 512 512 none x _ i k).trans ?_
    refine Finset.sum_congr rfl fun c _ => ?_
    congr 1
    exact transpose_apply [1, 0] W transposes_S512x512_S512x512_1_0 (ix2 c k) (ix2 k c) fun a => by
      match a with
      | ⟨0, _⟩ => rfl
      | ⟨1, _⟩ => rfl
  · refine (broadcastInDim_apply ![0, 1] bcast_S1x512_S8192x512_0_1 _ (ix2 i k) (ix2 (0 : Fin 1) k) fun a => ?_).trans ?_
    · match a with
      | ⟨0, _⟩ => rfl
      | ⟨1, _⟩ => rfl
    · exact broadcastInDim_apply ![1] bcast_S512_S1x512_1 b (ix2 (0 : Fin 1) k) (ix1 k) fun a => by
        match a with
        | ⟨0, _⟩ => rfl

/-- The comparison with the zero array, entry by entry: one where the entry is positive, zero elsewhere. -/
theorem gt_zero_apply (y : FVec Ideal S8192x512 .f32) (j : S8192x512.Idx) :
    cmpf (F := Ideal) .ogt y (broadcastInDim S8192x512 ![] bcast_S_S8192x512 (constant S_ .f32 0x00000000#32)) j
      = if 0 < y j then 1#1 else 0#1 := by
  rw [cmpf_apply, splat_apply, constant_apply, Ideal.ofBits_zero_f32, Ideal.cmpf_def]
  unfold Ideal.cmp
  by_cases h : (0 : EReal) < y j
  · rw [if_pos h]; simp only [decide_eq_true h]; rfl
  · rw [if_neg h]; simp only [decide_eq_false h]; rfl

/-- The reference's spelling of ELU is ELU, on every extended real. -/
theorem eluV_apply (y : FVec Ideal S8192x512 .f32) (j : S8192x512.Idx) : eluV (F := Ideal) y j = Cert.Spec.elu (y j) := by
  unfold eluV Cert.Spec.elu
  rw [select_apply, gt_zero_apply]
  by_cases h : (0 : EReal) < y j
  · rw [if_pos h, if_pos h, select_one]
  · rw [if_neg h, if_neg h, select_zero, mulf_apply, splat_apply, constant_apply, Cert.RealEntries.ofBits_one, one_mul]
    change FloatOps.hostUnary .expm1 (select _ _ y j) = _
    rw [select_apply, gt_zero_apply, if_neg h, select_zero, Ideal.hostUnary_expm1_def]

/-- The norm column at row i: the square root of the sum of the squares over the row. -/
theorem normV_apply (z : FVec Ideal S8192x512 .f32) (i : Fin 8192) (u : Fin 1) :
    normV (F := Ideal) z (ix2 i u) = Ideal.sqrt (∑ k : Fin 512, z (ix2 i k) * z (ix2 i k)) := by
  unfold normV
  change FloatOps.hostUnary .sqrt _ = _
  rw [Ideal.hostUnary_sqrt_def]
  congr 1
  refine (broadcastInDim_apply ![0] bcast_S8192_S8192x1_0 _ (ix2 i u) (ix1 i) fun a => ?_).trans ?_
  · match a with
    | ⟨0, _⟩ => rfl
  · change Ideal.hostReduceAdd reducesTo_S8192x512_S8192_d1 (mulf z z) _ (ix1 i) = _
    have hr : S8192x512.Reduces [1] S8192 := by decide
    rw [Ideal.hostReduceAdd_single reducesTo_S8192x512_S8192_d1 hr, constant_apply, Ideal.ofBits_zero_f32, zero_add]
    refine Finset.sum_congr rfl fun k _ => ?_
    have hl : hr.lift (ix1 i) k = ix2 i k := by
      funext a
      refine Fin.ext ?_
      match a with
      | ⟨0, _⟩ => rfl
      | ⟨1, _⟩ => rfl
    rw [hl]
    rfl

/-- The similarity matrix at (i, j): the dot product of row i of the first activations with row j of the second,
    over the product of the two rows' norms (the single term of a contraction over one index), over the temperature
    word, exponentiated. -/
theorem simV_apply (z1 z2 : FVec Ideal S8192x512 .f32) (i j : Fin 8192) :
    simV (F := Ideal) z1 z2 (ix2 i j)
      = Ideal.exp (Ideal.div (Ideal.div (∑ k : Fin 512, z1 (ix2 i k) * z2 (ix2 j k))
          (Ideal.sqrt (∑ k : Fin 512, z1 (ix2 i k) * z1 (ix2 i k)) * Ideal.sqrt (∑ k : Fin 512, z2 (ix2 j k) * z2 (ix2 j k))))
          (Ideal.ofBits .f32 0x3F4CCCCD#32)) := by
  have hA : Host.dotGeneral (F := Ideal) (φ₁ := .f32) (φ₂ := .f32) dot_S8192x512_S512x8192_S8192x8192_1_0_0_1_n_n none z1
        (transpose S512x8192 [1, 0] z2 transposes_S8192x512_S512x8192_1_0) (ix2 i j)
      = ∑ k : Fin 512, z1 (ix2 i k) * z2 (ix2 j k) := by
    refine (Cert.Lib.plain_dotGeneral_apply (φ₁ := .f32) (φ₂ := .f32) 8192 512 8192 none z1 _ i j).trans ?_
    refine Finset.sum_congr rfl fun k _ => ?_
    congr 1
    exact transpose_apply [1, 0] z2 transposes_S8192x512_S512x8192_1_0 (ix2 k j) (ix2 j k) fun a => by
      match a with
      | ⟨0, _⟩ => rfl
      | ⟨1, _⟩ => rfl
  have hB : Host.dotGeneral (F := Ideal) (φ₁ := .f32) (φ₂ := .f32) dot_S8192x1_S1x8192_S8192x8192_1_0_0_1_n_n none (normV (F := Ideal) z1 : FVec Ideal S8192x1 .f32)
        (transpose S1x8192 [1, 0] (normV (F := Ideal) z2 : FVec Ideal S8192x1 .f32) transposes_S8192x1_S1x8192_1_0 : FVec Ideal S1x8192 .f32) (ix2 i j)
      = Ideal.sqrt (∑ k : Fin 512, z1 (ix2 i k) * z1 (ix2 i k)) * Ideal.sqrt (∑ k : Fin 512, z2 (ix2 j k) * z2 (ix2 j k)) := by
    refine (Cert.Lib.plain_dotGeneral_apply (φ₁ := .f32) (φ₂ := .f32) 8192 1 8192 none (normV (F := Ideal) z1 : FVec Ideal S8192x1 .f32) _ i j).trans ?_
    rw [Fin.sum_univ_one, normV_apply, Cert.Lib.transpose_a1_1a_apply, normV_apply]
  have hC : broadcastInDim S8192x8192 ![] bcast_S_S8192x8192 (constant (F := Ideal) S_ .f32 0x3F4CCCCD#32) (ix2 i j)
      = Ideal.ofBits .f32 0x3F4CCCCD#32 :=
    (broadcastInDim_apply ![] bcast_S_S8192x8192 _ (ix2 i j) ix0 fun a => a.elim0).trans (constant_apply _ _)
  unfold simV Host.exp Host.divf
  beta_reduce
  rw [hA, hB, hC, Ideal.hostUnary_exp_def, Ideal.hostDivf_def, Ideal.hostDivf_def]

/-- The sum of a square array over both axes, from the zero word: the double sum over rows and columns. -/
theorem sumAll_apply (A : FVec Ideal S8192x8192 .f32) (j : S_.Idx) :
    Host.reduceAdd A (constant (F := Ideal) S_ .f32 0x00000000#32) reducesTo_S8192x8192_S_d0_1 h_S_ j
      = ∑ a : Fin 8192, ∑ b : Fin 8192, A (ix2 a b) := by
  change Ideal.hostReduceAdd reducesTo_S8192x8192_S_d0_1 A _ j = _
  rw [Ideal.hostReduceAdd_total reducesTo_S8192x8192_S_d0_1 (fun b => b.elim0), constant_apply, Ideal.ofBits_zero_f32,
    zero_add, sum_idx2]

/-- THE REFERENCE'S VALUE: the composed term of the six argument arrays is the specification's result, at its one index. -/
theorem outV_eq (x1 x2 : FVec Ideal S8192x512 .f32) (p q : FVec Ideal S8192x8192 .f32) (W : FVec Ideal S512x512 .f32) (b : FVec Ideal S512 .f32) :
    outV (F := Ideal) x1 x2 p q W b
      = fun _ => Cert.Spec.refResult x1 x2 p q W (fun c => b (ix1 c)) (Ideal.ofBits .f32 0x3F4CCCCD#32) := by
  have hs : ∀ i j : Fin 8192, simV (F := Ideal) (eluV (F := Ideal) (linV (F := Ideal) x1 W b)) (eluV (F := Ideal) (linV (F := Ideal) x2 W b)) (ix2 i j)
      = Cert.Spec.simR x1 x2 W (fun c => b (ix1 c)) (Ideal.ofBits .f32 0x3F4CCCCD#32) i j := by
    intro i j
    rw [simV_apply]
    unfold Cert.Spec.simR Cert.Spec.nrm Cert.Spec.sq Cert.Spec.act
    simp only [eluV_apply, linV_apply]
  funext u
  unfold outV lossV Host.negf Host.log Host.divf Cert.Spec.refResult
  beta_reduce
  rw [Ideal.hostNegf_def, Ideal.negf_def, Ideal.hostUnary_log_def, Ideal.hostDivf_def, sumAll_apply, sumAll_apply]
  simp only [mulf_apply, addf_apply, hs]

/-- THE REFERENCE'S RUN AND VALUE: on the extended reals, from any memory with zero counters, every weakly fair
    execution of the reference terminates with the result buffer at the specification's result of the six
    argument arrays (the temperature the word the program carries) and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v29)
          = (fun _ => Cert.Spec.refResult (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
              (fun k => m ((c.tc : Thread nD τ).loc main_arg5) (Idealize.ShloMosaic.ValueIdx.ix1 k)) (Ideal.ofBits .f32 0x3F4CCCCD#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (outV_eq _ _ _ _ _ _), (h c).2⟩) (run_term m ρ)

end Cert.ReferenceIdeal.RefValue

end
-- ==== Proof.PreFactsFinite.lean ====
/-
  An array every entry of which has absolute value below plus infinity has real entries.

  On the extended reals the absolute value is max x (-x); it is plus infinity at both infinite points and a real at a
  real, so "max x (-x) < plus infinity" holds exactly at the reals. The f32 word 0x7F800000 denotes plus infinity. A
  conjunction over all entries (a reduction of one-bit words by "and" from 1 into a single index) that comes out 1
  has 1 at every entry, so the comparison holds entry by entry, and each entry is a real.
-/
import Idealize.ShloMosaic.PureOps.Ideal
import Idealize.ShloMosaic.PureOps.Ideal.Laws
import Idealize.ShloMosaic.Lib.ValueIdx
import Idealize.ShloMosaic.Lib.ReduceAll
import proofs.«150668_j60876866454165_2_alg».proof.Proof.LibRealEntries

noncomputable section

namespace Cert.PreFacts

open Idealize.ShloMosaic Idealize.ShloMosaic.ValueIdx Cert.RealEntries

/-- The rank-zero shape has one index. -/
instance subsingleton_scalar_idx : Subsingleton (⟨0, ![]⟩ : Shape).Idx := ⟨fun a b => funext fun d => d.elim0⟩

/-- The f32 word of plus infinity denotes the top element. -/
theorem ofBits_inf : Ideal.ofBits .f32 0x7F800000#32 = ⊤ := by simp [Ideal.ofBits, Ideal.ieee]

/-- An extended real whose absolute value is below the top element is a real. -/
theorem isReal_of_abs_lt_top (x : EReal) (h : max x (-x) < ⊤) : IsReal x := by
  induction x using EReal.rec with
  | bot => simp at h
  | coe r => exact ⟨r, rfl⟩
  | top => simp at h

/-- The comparison "less than" of extended reals, as a one-bit word, is 1 exactly when it holds. -/
theorem cmp_olt_eq_one (x y : EReal) : Ideal.cmp .olt x y = 1#1 ↔ x < y := by
  unfold Ideal.cmp
  by_cases hxy : x < y <;> simp [hxy]

/-- The comparison "greater than" of extended reals, as a one-bit word, is 1 exactly when it holds. -/
theorem cmp_ogt_eq_one (x y : EReal) : Ideal.cmp .ogt x y = 1#1 ↔ y < x := by
  unfold Ideal.cmp
  by_cases hxy : y < x <;> simp [hxy]

/-- One entry: the word of |x| < +inf being 1 makes x a real. -/
theorem isReal_of_word (x : EReal)
    (h : Ideal.cmp .olt (max x (-x)) (Ideal.ofBits .f32 0x7F800000#32) = 1#1) : IsReal x := by
  rw [ofBits_inf, cmp_olt_eq_one] at h
  exact isReal_of_abs_lt_top x h

/-- A whole array: if the conjunction over all entries of |x| < +inf is 1, every entry is a real. -/
theorem all_isReal {s u : Shape} {axes : List (Fin s.rank)} (x : FVec Ideal s .f32) (top : FVec Ideal s .f32)
    (htop : ∀ i, top i = Ideal.ofBits .f32 0x7F800000#32) (init : IVec u 1)
    (hr : s.ReducesTo axes ⟨0, ![]⟩) (hu : 0 < u.numel)
    (h : Host.reduce IntOp.andi (cmpf .olt (Host.absf x) top) init hr hu ix0 = 1#1) (i : s.Idx) : IsReal (x i) := by
  have e := Host.reduce_andi_all (cmpf .olt (Host.absf x) top) init hr hu ix0 h i
  rw [cmpf_apply, Ideal.cmpf_def, htop] at e
  exact isReal_of_word (x i) e

end Cert.PreFacts

end
-- ==== Proof.PreFactsRow.lean ====
/-
  The row condition of the precondition, read as mathematics.

  For a view x (8192 rows of 512 features), a weight matrix W (512 x 512) and a bias b (512 entries) the precondition
  forms y = x W^T + b: the transpose of W read at (c, k) is W[k, c], the matrix product of x by it at (i, k) is
  the sum over c of x[i,c] * W[k,c], and the bias, spread first to one row and then over all rows, reads b[k] at
  (i, k). So y[i,k] is the projection lin x W b i k. The precondition then squares y entrywise, sums each row from
  the zero word (0 + the sum over k), and compares the row sums with zero: the comparison word "greater than" being 1
  at row i says 0 < sum over k of y[i,k]^2.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«150668_j60876866454165_2_alg».proof.Pre_finite_inputs
import proofs.«150668_j60876866454165_2_alg».proof.Proof.Spec
import proofs.«150668_j60876866454165_2_alg».proof.Proof.LibPlainDot
import proofs.«150668_j60876866454165_2_alg».proof.Proof.LibRowReduce
import proofs.«150668_j60876866454165_2_alg».proof.Proof.PreFactsFinite

noncomputable section

open scoped BigOperators

namespace Cert.PreFacts

open Idealize.ShloMosaic Idealize.ShloMosaic.ValueIdx Cert.Pre_finite_inputs

variable [Cert.Pre_finite_inputs.Facts]

/-- The precondition's dimension numbers are those of a plain 8192x512 by 512x512 matrix product. -/
theorem dot_eq_plain : dot_S8192x512_S512x512_S8192x512_1_0_0_1_n_n = DotDims.plain 8192 512 512 := rfl

/-- The bias spread to one row and then over the 8192 rows reads, at (i, k), the bias at k. -/
theorem bias_apply (a5 : FVec Ideal S512 .f32) (hb1 : S512.BroadcastsInDim S1x512 (![1] : Fin 1 → Fin S1x512.rank))
    (hb2 : S1x512.BroadcastsInDim S8192x512 (![0, 1] : Fin 2 → Fin S8192x512.rank)) (i : Fin 8192) (k : Fin 512) :
    broadcastInDim S8192x512 ![0, 1] hb2 (broadcastInDim S1x512 ![1] hb1 a5) (ix2 i k) = a5 (ix1 k) := by
  refine (broadcastInDim_apply _ hb2 _ (ix2 i k) (ix2 (0 : Fin 1) k) fun a => ?_).trans ?_
  · match a with
    | ⟨0, _⟩ => rfl
    | ⟨1, _⟩ => rfl
  · refine broadcastInDim_apply _ hb1 a5 (ix2 (0 : Fin 1) k) (ix1 k) fun a => ?_
    match a with
    | ⟨0, _⟩ => rfl

/-- The projection the precondition forms is lin, entry by entry. -/
theorem proj_apply (x : FVec Ideal S8192x512 .f32) (a4 : FVec Ideal S512x512 .f32) (a5 : FVec Ideal S512 .f32)
    (ht : S512x512.Transposes [1, 0] S512x512)
    (hb1 : S512.BroadcastsInDim S1x512 (![1] : Fin 1 → Fin S1x512.rank))
    (hb2 : S1x512.BroadcastsInDim S8192x512 (![0, 1] : Fin 2 → Fin S8192x512.rank)) (i : Fin 8192) (k : Fin 512) :
    addf (Host.dotGeneral dot_S8192x512_S512x512_S8192x512_1_0_0_1_n_n none x (transpose S512x512 [1, 0] a4 ht))
        (broadcastInDim S8192x512 ![0, 1] hb2 (broadcastInDim S1x512 ![1] hb1 a5)) (ix2 i k)
      = Cert.Spec.lin x a4 (fun k' => a5 (ix1 k')) i k := by
  rw [addf_apply, bias_apply, dot_eq_plain, Cert.Lib.plain_dotGeneral_apply]
  unfold Cert.Spec.lin
  congr 1
  exact Finset.sum_congr rfl fun c _ => by rw [transpose_ix2_apply]

/-- The row sum of an 8192x512 array from the zero word, at row i, is the sum of the row's entries. -/
theorem rowSum_apply (X : FVec Ideal S8192x512 .f32) (hr : S8192x512.ReducesTo [1] S8192) (hu : 0 < S_.numel) (i : Fin 8192) :
    Host.reduceAdd X (constant S_ .f32 0x00000000#32) hr hu (ix1 i) = ∑ k : Fin 512, X (ix2 i k) := by
  have hred : S8192x512.Reduces [1] S8192 := by decide
  show Ideal.hostReduceAdd hr X (Ideal.ofBits .f32 0x00000000#32) (ix1 i) = _
  rw [Ideal.hostReduceAdd_single hr hred, Ideal.ofBits_zero_f32, zero_add]
  exact Finset.sum_congr rfl fun k _ => congrArg X (Cert.Lib.lift_row hred i k)

/-- THE ROW CONDITION: the comparison word of "row sum of squares of the projection > 0" being 1 at row i says that
    the sum over k of lin[i,k]^2 is positive. -/
theorem row_pos (x : FVec Ideal S8192x512 .f32) (a4 : FVec Ideal S512x512 .f32) (a5 : FVec Ideal S512 .f32)
    (ht : S512x512.Transposes [1, 0] S512x512)
    (hb1 : S512.BroadcastsInDim S1x512 (![1] : Fin 1 → Fin S1x512.rank))
    (hb2 : S1x512.BroadcastsInDim S8192x512 (![0, 1] : Fin 2 → Fin S8192x512.rank))
    (hr : S8192x512.ReducesTo [1] S8192) (hu : 0 < S_.numel)
    (hb0 : S_.BroadcastsInDim S8192 (![] : Fin 0 → Fin S8192.rank)) (i : Fin 8192)
    (h : cmpf .ogt
        (Host.reduceAdd
          (mulf
            (addf (Host.dotGeneral dot_S8192x512_S512x512_S8192x512_1_0_0_1_n_n none x (transpose S512x512 [1, 0] a4 ht))
              (broadcastInDim S8192x512 ![0, 1] hb2 (broadcastInDim S1x512 ![1] hb1 a5)))
            (addf (Host.dotGeneral dot_S8192x512_S512x512_S8192x512_1_0_0_1_n_n none x (transpose S512x512 [1, 0] a4 ht))
              (broadcastInDim S8192x512 ![0, 1] hb2 (broadcastInDim S1x512 ![1] hb1 a5))))
          (constant S_ .f32 0x00000000#32) hr hu)
        (broadcastInDim S8192 ![] hb0 (constant S_ .f32 0x00000000#32)) (ix1 i) = 1#1) :
    0 < ∑ k : Fin 512, Cert.Spec.lin x a4 (fun k' => a5 (ix1 k')) i k * Cert.Spec.lin x a4 (fun k' => a5 (ix1 k')) i k := by
  rw [cmpf_apply, Ideal.cmpf_def, cmp_ogt_eq_one, rowSum_apply] at h
  have hz : broadcastInDim S8192 ![] hb0 (constant (F := Ideal) S_ .f32 0x00000000#32) (ix1 i) = 0 := Ideal.ofBits_zero_f32
  rw [hz] at h
  refine lt_of_lt_of_eq h (Finset.sum_congr rfl fun k _ => ?_)
  rw [mulf_apply, proj_apply]

end Cert.PreFacts

end
-- ==== Proof.PreFacts.lean ====
/-
  What the precondition says, as mathematics.

  The precondition is a conjunction of eight one-bit words: for each of the six argument arrays, "every entry has
  absolute value below plus infinity"; and for each of the two views x, "every row of y = x W^T + b has a positive sum
  of squares". A conjunction that is 1 has every conjunct 1. Each of the first six then says every entry of that
  array is a real number; each of the last two says, row by row, 0 < sum over k of lin x W b i k squared.
-/
import Idealize.ShloMosaic.PureOps.Ideal
import Idealize.ShloMosaic.PureOps.Ideal.Laws
import Idealize.ShloMosaic.Lib.ValueIdx
import Idealize.ShloMosaic.Lib.ReduceAll
import proofs.«150668_j60876866454165_2_alg».proof.Pre_finite_inputs
import proofs.«150668_j60876866454165_2_alg».proof.Proof.Spec
import proofs.«150668_j60876866454165_2_alg».proof.Proof.LibRealEntries
import proofs.«150668_j60876866454165_2_alg».proof.Proof.PreFactsFinite
import proofs.«150668_j60876866454165_2_alg».proof.Proof.PreFactsRow

noncomputable section

open scoped BigOperators

namespace Cert.PreFacts

open Idealize.ShloMosaic Idealize.ShloMosaic.ValueIdx Cert.Pre_finite_inputs Cert.RealEntries

/-- A conjunction of two rank-zero one-bit words is 1 exactly when both are. -/
theorem andi_ix0 (a b : IVec S_ 1) : andi a b ix0 = 1#1 ↔ a ix0 = 1#1 ∧ b ix0 = 1#1 := IntOp.andi_eq_one

/-- THE PRECONDITION READ: all six arrays have real entries, and every row of either view's projection has a
    positive sum of squares. -/
theorem of_pre [Cert.Pre_finite_inputs.Facts] (a0 a1 : FVec Ideal S8192x512 .f32) (a2 a3 : FVec Ideal S8192x8192 .f32)
    (a4 : FVec Ideal S512x512 .f32) (a5 : FVec Ideal S512 .f32)
    (h : Cert.Pre_finite_inputs.fn (F := Ideal) a0 a1 a2 a3 a4 a5 = fun _ => 1#1) :
    (∀ idx, IsReal (a0 idx)) ∧ (∀ idx, IsReal (a1 idx)) ∧ (∀ idx, IsReal (a2 idx)) ∧ (∀ idx, IsReal (a3 idx))
      ∧ (∀ idx, IsReal (a4 idx)) ∧ (∀ idx, IsReal (a5 idx))
      ∧ (∀ i : Fin 8192, 0 < ∑ k : Fin 512, Cert.Spec.lin a0 a4 (fun k' => a5 (ix1 k')) i k * Cert.Spec.lin a0 a4 (fun k' => a5 (ix1 k')) i k)
      ∧ (∀ i : Fin 8192, 0 < ∑ k : Fin 512, Cert.Spec.lin a1 a4 (fun k' => a5 (ix1 k')) i k * Cert.Spec.lin a1 a4 (fun k' => a5 (ix1 k')) i k) := by
  have h0 := congrFun h ix0
  dsimp only [fn, fn_part1, fn_part2] at h0
  rw [andi_ix0, andi_ix0, andi_ix0, andi_ix0, andi_ix0, andi_ix0, andi_ix0] at h0
  obtain ⟨⟨⟨⟨⟨⟨⟨h1, h2⟩, h3⟩, h4⟩, h5⟩, h6⟩, h7⟩, h8⟩ := h0
  refine ⟨?_, ?_, ?_, ?_, ?_, ?_, ?_, ?_⟩
  · exact all_isReal a0 _ (fun _ => rfl) _ _ _ h1
  · exact all_isReal a1 _ (fun _ => rfl) _ _ _ h2
  · exact all_isReal a2 _ (fun _ => rfl) _ _ _ h3
  · exact all_isReal a3 _ (fun _ => rfl) _ _ _ h4
  · exact all_isReal a4 _ (fun _ => rfl) _ _ _ h5
  · exact all_isReal a5 _ (fun _ => rfl) _ _ _ h6
  · intro i
    exact row_pos a0 a4 a5 _ _ _ _ _ _ i (Host.reduce_andi_all _ _ _ _ ix0 h7 (ix1 i))
  · intro i
    exact row_pos a1 a4 a5 _ _ _ _ _ _ i (Host.reduce_andi_all _ _ _ _ ix0 h8 (ix1 i))

end Cert.PreFacts

end
-- ==== Proof.BridgeConsts.lean ====
/-
  The two single-precision words the programs spell, read as the real numbers they denote.

  The word 0x43000000 has sign 0, exponent field 134 and an empty fraction: it is 2^23 * 2^(134 - 127 - 23) = 2^7 = 128,
  the number of equal lanes of the accumulators.  The word 0x3F4CCCCD has sign 0, exponent field 126 and fraction
  5033165: it is (2^23 + 5033165) * 2^(126 - 127 - 23) = 13421773 / 2^24, the single-precision number nearest to 0.8,
  the temperature.
-/
import Idealize.ShloMosaic.PureOps.Ideal

noncomputable section

namespace Cert.Bridge

open Idealize.ShloMosaic

/-- The word of `128.0` denotes the real `128`. -/
theorem ofBits_128 : Ideal.ofBits .f32 0x43000000#32 = ((128 : ℝ) : EReal) := by
  simp [Ideal.ofBits, Ideal.ieee, -EReal.coe_mul]; norm_num

/-- The word nearest to `0.8` denotes the real `13421773 / 2^24`. -/
theorem ofBits_tau : Ideal.ofBits .f32 0x3F4CCCCD#32 = ((13421773 / 16777216 : ℝ) : EReal) := by
  simp [Ideal.ofBits, Ideal.ieee, -EReal.coe_mul]; norm_num

end Cert.Bridge

end
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.BridgeReal.lean ====
/-
  Every intermediate quantity of the specification is a real number when the inputs are.

  The projection lin is a finite sum of products of reals plus a real.  ELU of a real y is y itself when y is positive
  and exp y - 1 otherwise, again a real; and it vanishes only at y = 0: a positive y is its own image, and for y ≤ 0
  the equation exp y = 1 forces y = 0.  Hence a row of the projection with a non-zero entry has an activated row with a
  non-zero entry, and the sum of squares of the activated row, a sum of non-negative reals with one positive term, is
  positive.  Its square root, the row's norm, is then a positive real, and the normalised row, a real over a positive
  real, is a real.
-/
import proofs.«150668_j60876866454165_2_alg».proof.Proof.Spec
import proofs.«150668_j60876866454165_2_alg».proof.Proof.LibRealEntries
import proofs.«150668_j60876866454165_2_alg».proof.Proof.LibERealCoe

noncomputable section

open scoped BigOperators

namespace Cert.Bridge

open Cert.Spec Cert.RealEntries Idealize.ShloMosaic Idealize.ShloMosaic.ValueIdx

/-- ELU on the reals. -/
def eluR (y : ℝ) : ℝ := if 0 < y then y else Real.exp y - 1

/-- ELU of a coerced real is the coerced real ELU. -/
theorem elu_coe (y : ℝ) : elu (y : EReal) = ((eluR y : ℝ) : EReal) := by
  unfold elu eluR
  by_cases h : 0 < y
  · rw [if_pos (EReal.coe_pos.mpr h), if_pos h]
  · rw [if_neg (fun h' => h (EReal.coe_pos.mp h')), if_neg h, Cert.Lib.exp_coe', ← EReal.coe_one, ← EReal.coe_sub]

/-- The real ELU vanishes only at zero. -/
theorem eluR_ne_zero {y : ℝ} (h : y ≠ 0) : eluR y ≠ 0 := by
  unfold eluR
  by_cases hy : 0 < y
  · rw [if_pos hy]; exact h
  · rw [if_neg hy]
    intro he
    have h1 : Real.exp y = 1 := by linarith
    exact h (by rwa [Real.exp_eq_one_iff] at h1)

/-- The projection of real inputs is real. -/
theorem isReal_lin (x : Sx.Idx → EReal) (W : Sw.Idx → EReal) (b : Fin 512 → EReal)
    (hx : ∀ idx, IsReal (x idx)) (hW : ∀ idx, IsReal (W idx)) (hb : ∀ k, IsReal (b k)) (i : Fin 8192) (k : Fin 512) :
    IsReal (lin x W b i k) :=
  (IsReal.sum _ _ (fun c _ => (hx _).mul (hW _))).add (hb k)

/-- The activated projection of real inputs is real. -/
theorem isReal_act (x : Sx.Idx → EReal) (W : Sw.Idx → EReal) (b : Fin 512 → EReal)
    (hx : ∀ idx, IsReal (x idx)) (hW : ∀ idx, IsReal (W idx)) (hb : ∀ k, IsReal (b k)) (i : Fin 8192) (k : Fin 512) :
    IsReal (act x W b i k) := by
  obtain ⟨r, hr⟩ := isReal_lin x W b hx hW hb i k
  unfold act
  rw [hr, elu_coe]
  exact isReal_coe _

/-- The sum of squares of an activated row of real inputs is real. -/
theorem isReal_sq (x : Sx.Idx → EReal) (W : Sw.Idx → EReal) (b : Fin 512 → EReal)
    (hx : ∀ idx, IsReal (x idx)) (hW : ∀ idx, IsReal (W idx)) (hb : ∀ k, IsReal (b k)) (i : Fin 8192) :
    IsReal (sq x W b i) :=
  IsReal.sum _ _ (fun k _ => (isReal_act x W b hx hW hb i k).mul (isReal_act x W b hx hW hb i k))

/-- A positive sum of squares of real inputs is a positive real. -/
theorem isPos_sq (x : Sx.Idx → EReal) (W : Sw.Idx → EReal) (b : Fin 512 → EReal)
    (hx : ∀ idx, IsReal (x idx)) (hW : ∀ idx, IsReal (W idx)) (hb : ∀ k, IsReal (b k)) (i : Fin 8192)
    (h : 0 < sq x W b i) : IsPos (sq x W b i) := by
  obtain ⟨r, hr⟩ := isReal_sq x W b hx hW hb i
  rw [hr] at h ⊢
  exact ⟨r, EReal.coe_pos.mp h, rfl⟩

/-- The norm of a row with a positive sum of squares is a positive real. -/
theorem isPos_nrm (x : Sx.Idx → EReal) (W : Sw.Idx → EReal) (b : Fin 512 → EReal)
    (hx : ∀ idx, IsReal (x idx)) (hW : ∀ idx, IsReal (W idx)) (hb : ∀ k, IsReal (b k)) (i : Fin 8192)
    (h : 0 < sq x W b i) : IsPos (nrm x W b i) :=
  (isPos_sq x W b hx hW hb i h).sqrt

/-- The normalised row of a row with a positive sum of squares is real. -/
theorem isReal_zhat (x : Sx.Idx → EReal) (W : Sw.Idx → EReal) (b : Fin 512 → EReal)
    (hx : ∀ idx, IsReal (x idx)) (hW : ∀ idx, IsReal (W idx)) (hb : ∀ k, IsReal (b k)) (i : Fin 8192) (k : Fin 512)
    (h : 0 < sq x W b i) : IsReal (zhat x W b i k) :=
  (isReal_act x W b hx hW hb i k).div_pos (isPos_nrm x W b hx hW hb i h)

/-- A row of the projection with a non-zero entry gives a positive sum of squares of the ACTIVATED row: ELU vanishes
    only at zero. -/
theorem sq_pos_of_lin (x : Sx.Idx → EReal) (W : Sw.Idx → EReal) (b : Fin 512 → EReal)
    (hx : ∀ idx, IsReal (x idx)) (hW : ∀ idx, IsReal (W idx)) (hb : ∀ k, IsReal (b k)) (i : Fin 8192)
    (h : 0 < ∑ k : Fin 512, lin x W b i k * lin x W b i k) : 0 < sq x W b i := by
  choose l hl using fun k => isReal_lin x W b hx hW hb i k
  have hsum : (∑ k : Fin 512, lin x W b i k * lin x W b i k) = ((∑ k : Fin 512, l k * l k : ℝ) : EReal) := by
    rw [← Cert.Lib.coe_sum]
    refine Finset.sum_congr rfl (fun k _ => ?_)
    rw [hl k, EReal.coe_mul]
  rw [hsum] at h
  have h' : 0 < ∑ k : Fin 512, l k * l k := EReal.coe_pos.mp h
  have hsq : sq x W b i = ((∑ k : Fin 512, eluR (l k) * eluR (l k) : ℝ) : EReal) := by
    unfold Cert.Spec.sq Cert.Spec.act
    rw [← Cert.Lib.coe_sum]
    refine Finset.sum_congr rfl (fun k _ => ?_)
    rw [hl k, elu_coe, EReal.coe_mul]
  rw [hsq]
  have hex : ∃ k, l k ≠ 0 := by
    by_contra hno
    have hne : ∀ k, l k = 0 := fun k => by_contra (fun hk => hno ⟨k, hk⟩)
    have h0 : ∑ k : Fin 512, l k * l k = 0 := Finset.sum_eq_zero (fun k _ => by rw [hne k, mul_zero])
    linarith
  obtain ⟨k, hk⟩ := hex
  have hpos : 0 < ∑ k : Fin 512, eluR (l k) * eluR (l k) :=
    Finset.sum_pos' (fun k _ => mul_self_nonneg _) ⟨k, Finset.mem_univ k, mul_self_pos.mpr (eluR_ne_zero hk)⟩
  exact EReal.coe_pos.mpr hpos

end Cert.Bridge

end
-- ==== Proof.BridgeSim.lean ====
/-
  The two spellings of the similarity agree.

  Let a and c be two real rows and n, m two positive reals.  Dividing first, the sum over k of (a_k / n) * (c_k / m) is
  (sum_k a_k c_k) / (n m), because 1 / (n m) is a common factor of every term; and multiplying by 2^24 / 13421773 is
  dividing by 13421773 / 2^24.  So the exponent the kernel forms from the normalised rows is the exponent the reference
  forms from the un-normalised rows, the product of the norms and the temperature.  Every division here is by a non-zero
  real and so is the product with the reciprocal; the whole computation takes place in the reals.
-/
import proofs.«150668_j60876866454165_2_alg».proof.Proof.BridgeReal

noncomputable section

open scoped BigOperators

namespace Cert.Bridge

open Cert.Spec Cert.RealEntries Idealize.ShloMosaic Idealize.ShloMosaic.ValueIdx

/-- The identity in the reals: normalise, then contract and scale, equals contract, then divide by the norms and by the
    reciprocal scale. -/
theorem sim_real_eq (a c : Fin 512 → ℝ) (n m : ℝ) (hn : 0 < n) (hm : 0 < m) :
    (∑ k : Fin 512, (a k * (1 / n)) * (c k * (1 / m))) * (16777216 / 13421773)
      = (∑ k : Fin 512, a k * c k) * (1 / (n * m)) * (1 / (13421773 / 16777216)) := by
  have hs : (∑ k : Fin 512, (a k * (1 / n)) * (c k * (1 / m))) = (∑ k : Fin 512, a k * c k) * (1 / (n * m)) := by
    rw [Finset.sum_mul]
    refine Finset.sum_congr rfl (fun k _ => ?_)
    have hn' := hn.ne'
    have hm' := hm.ne'
    field_simp
  rw [hs]
  norm_num

/-- The same identity on coerced reals, under the exponential, in the two programs' spellings. -/
theorem sim_coe_eq (a c : Fin 512 → ℝ) (n m : ℝ) (hn : 0 < n) (hm : 0 < m) :
    Ideal.exp ((∑ k : Fin 512, Ideal.div (a k : EReal) (n : EReal) * Ideal.div (c k : EReal) (m : EReal))
        * ((16777216 / 13421773 : ℝ) : EReal))
      = Ideal.exp (Ideal.div (Ideal.div (∑ k : Fin 512, (a k : EReal) * (c k : EReal)) ((n : EReal) * (m : EReal)))
          ((13421773 / 16777216 : ℝ) : EReal)) := by
  have hnm : n * m ≠ 0 := (mul_pos hn hm).ne'
  have hτ : (13421773 / 16777216 : ℝ) ≠ 0 := by norm_num
  have hL : (∑ k : Fin 512, Ideal.div (a k : EReal) (n : EReal) * Ideal.div (c k : EReal) (m : EReal))
      = ((∑ k : Fin 512, (a k * (1 / n)) * (c k * (1 / m)) : ℝ) : EReal) := by
    rw [← Cert.Lib.coe_sum]
    refine Finset.sum_congr rfl (fun k _ => ?_)
    rw [Ideal.div_coe hn.ne', Ideal.div_coe hm.ne', EReal.coe_mul, EReal.coe_mul, EReal.coe_mul]
  have hR : (∑ k : Fin 512, (a k : EReal) * (c k : EReal)) = ((∑ k : Fin 512, a k * c k : ℝ) : EReal) := by
    rw [← Cert.Lib.coe_sum]
    refine Finset.sum_congr rfl (fun k _ => ?_)
    rw [EReal.coe_mul]
  rw [hL, hR, ← EReal.coe_mul n m, Ideal.div_coe hnm, Ideal.div_coe hτ, ← EReal.coe_mul, ← EReal.coe_mul,
    ← EReal.coe_mul, sim_real_eq a c n m hn hm]

/-- The kernel's similarity of the normalised rows is the reference's similarity of the rows themselves. -/
theorem simK_eq_simR (x1 x2 : Sx.Idx → EReal) (W : Sw.Idx → EReal) (b : Fin 512 → EReal)
    (hx1 : ∀ idx, IsReal (x1 idx)) (hx2 : ∀ idx, IsReal (x2 idx))
    (hW : ∀ idx, IsReal (W idx)) (hb : ∀ k, IsReal (b k))
    (hn1 : ∀ i, 0 < Cert.Spec.sq x1 W b i) (hn2 : ∀ j, 0 < Cert.Spec.sq x2 W b j) (i j : Fin 8192) :
    simK (zhatArr x1 W b) (zhatArr x2 W b) ((16777216 / 13421773 : ℝ) : EReal) i j
      = simR x1 x2 W b ((13421773 / 16777216 : ℝ) : EReal) i j := by
  choose a ha using fun k => isReal_act x1 W b hx1 hW hb i k
  choose c hc using fun k => isReal_act x2 W b hx2 hW hb j k
  obtain ⟨n, hn, en⟩ := isPos_nrm x1 W b hx1 hW hb i (hn1 i)
  obtain ⟨m, hm, em⟩ := isPos_nrm x2 W b hx2 hW hb j (hn2 j)
  have hz : ∀ k : Fin 512, zhatArr x1 W b (ix2 i k) * zhatArr x2 W b (ix2 j k)
      = Ideal.div (a k : EReal) (n : EReal) * Ideal.div (c k : EReal) (m : EReal) := by
    intro k
    show zhat x1 W b i k * zhat x2 W b j k = _
    unfold zhat
    rw [ha k, hc k, en, em]
  have hd : ∀ k : Fin 512, act x1 W b i k * act x2 W b j k = (a k : EReal) * (c k : EReal) := by
    intro k
    rw [ha k, hc k]
  unfold simK simR
  rw [Finset.sum_congr rfl (fun k _ => hz k), Finset.sum_congr rfl (fun k _ => hd k), en, em]
  exact sim_coe_eq a c n m hn hm

end Cert.Bridge

end
-- ==== Proof.BridgeTotal.lean ====
/-
  The 128 equal lanes.

  An accumulator array of 8192 rows and 128 lanes whose entry depends on the row alone, with value f i a real number,
  sums to 128 times the sum S of the f i: the sum over all entries is the double sum over rows and lanes, and the inner
  sum of 128 equal reals is 128 f i.  Dividing by 128 gives back S exactly, because S is a real: (128 S) * (1/128) = S.
  The kernel's row accumulators are reals: a similarity is the exponential of a real (a finite sum of products of reals
  times a real), and a row accumulator is a finite sum of similarities times real mask entries.
-/
import proofs.«150668_j60876866454165_2_alg».proof.Proof.BridgeSim

noncomputable section

open scoped BigOperators

namespace Cert.Bridge

open Cert.Spec Cert.RealEntries Idealize.ShloMosaic Idealize.ShloMosaic.ValueIdx

/-- An array of 128 equal lanes of reals, summed over all entries and divided by 128, is the sum over its rows. -/
theorem total_lanes (f : Fin 8192 → EReal) (hf : ∀ i, IsReal (f i)) :
    total (fun idx : Sacc.Idx => f (idx 0)) ((128 : ℝ) : EReal) = ∑ i : Fin 8192, f i := by
  choose r hr using hf
  have hrow : ∀ a : Fin 8192, (∑ l : Fin 128, (fun idx : Sacc.Idx => f (idx 0)) (ix2 a l)) = ((128 * r a : ℝ) : EReal) := by
    intro a
    show (∑ _l : Fin 128, f a) = _
    rw [hr a, Cert.Lib.coe_sum, Finset.sum_const, Finset.card_univ, Fintype.card_fin, nsmul_eq_mul]
    norm_num
  have h128 : (128 : ℝ) ≠ 0 := by norm_num
  unfold total
  rw [sum_idx2, Finset.sum_congr rfl (fun a _ => hrow a), Cert.Lib.coe_sum, Ideal.div_coe h128, ← EReal.coe_mul,
    Finset.sum_congr rfl (fun a _ => hr a), Cert.Lib.coe_sum, ← Finset.mul_sum]
  congr 1
  field_simp

/-- The exponential of a real is a real. -/
theorem isReal_exp {x : EReal} (hx : IsReal x) : IsReal (Ideal.exp x) := by
  obtain ⟨r, rfl⟩ := hx
  exact ⟨Real.exp r, rfl⟩

/-- The reference's similarity of rows with positive sums of squares is real. -/
theorem isReal_simR (x1 x2 : Sx.Idx → EReal) (W : Sw.Idx → EReal) (b : Fin 512 → EReal)
    (hx1 : ∀ idx, IsReal (x1 idx)) (hx2 : ∀ idx, IsReal (x2 idx))
    (hW : ∀ idx, IsReal (W idx)) (hb : ∀ k, IsReal (b k))
    (hn1 : ∀ i, 0 < Cert.Spec.sq x1 W b i) (hn2 : ∀ j, 0 < Cert.Spec.sq x2 W b j) (i j : Fin 8192) :
    IsReal (simR x1 x2 W b ((13421773 / 16777216 : ℝ) : EReal) i j) := by
  rw [← simK_eq_simR x1 x2 W b hx1 hx2 hW hb hn1 hn2 i j]
  unfold simK
  refine isReal_exp (IsReal.mul (IsReal.sum _ _ (fun k _ => ?_)) (isReal_coe _))
  exact IsReal.mul (isReal_zhat x1 W b hx1 hW hb i k (hn1 i)) (isReal_zhat x2 W b hx2 hW hb j k (hn2 j))

/-- A row accumulator of the kernel is the reference's row sum. -/
theorem rowAcc_eq (x1 x2 : Sx.Idx → EReal) (p : Sm.Idx → EReal) (W : Sw.Idx → EReal) (b : Fin 512 → EReal)
    (hx1 : ∀ idx, IsReal (x1 idx)) (hx2 : ∀ idx, IsReal (x2 idx))
    (hW : ∀ idx, IsReal (W idx)) (hb : ∀ k, IsReal (b k))
    (hn1 : ∀ i, 0 < Cert.Spec.sq x1 W b i) (hn2 : ∀ j, 0 < Cert.Spec.sq x2 W b j) (i : Fin 8192) :
    rowAcc (zhatArr x1 W b) (zhatArr x2 W b) ((16777216 / 13421773 : ℝ) : EReal) p i
      = ∑ j : Fin 8192, simR x1 x2 W b ((13421773 / 16777216 : ℝ) : EReal) i j * p (ix2 i j) := by
  unfold rowAcc
  exact Finset.sum_congr rfl (fun j _ => by rw [simK_eq_simR x1 x2 W b hx1 hx2 hW hb hn1 hn2 i j])

/-- A row accumulator of the kernel is real when the mask is. -/
theorem isReal_rowAcc (x1 x2 : Sx.Idx → EReal) (p : Sm.Idx → EReal) (W : Sw.Idx → EReal) (b : Fin 512 → EReal)
    (hx1 : ∀ idx, IsReal (x1 idx)) (hx2 : ∀ idx, IsReal (x2 idx)) (hp : ∀ idx, IsReal (p idx))
    (hW : ∀ idx, IsReal (W idx)) (hb : ∀ k, IsReal (b k))
    (hn1 : ∀ i, 0 < Cert.Spec.sq x1 W b i) (hn2 : ∀ j, 0 < Cert.Spec.sq x2 W b j) (i : Fin 8192) :
    IsReal (rowAcc (zhatArr x1 W b) (zhatArr x2 W b) ((16777216 / 13421773 : ℝ) : EReal) p i) := by
  rw [rowAcc_eq x1 x2 p W b hx1 hx2 hW hb hn1 hn2 i]
  exact IsReal.sum _ _ (fun j _ => (isReal_simR x1 x2 W b hx1 hx2 hW hb hn1 hn2 i j).mul (hp _))

/-- The kernel's total of an accumulator array with 128 equal lanes is the reference's double sum. -/
theorem total_rowAcc (x1 x2 : Sx.Idx → EReal) (p : Sm.Idx → EReal) (W : Sw.Idx → EReal) (b : Fin 512 → EReal)
    (hx1 : ∀ idx, IsReal (x1 idx)) (hx2 : ∀ idx, IsReal (x2 idx)) (hp : ∀ idx, IsReal (p idx))
    (hW : ∀ idx, IsReal (W idx)) (hb : ∀ k, IsReal (b k))
    (hn1 : ∀ i, 0 < Cert.Spec.sq x1 W b i) (hn2 : ∀ j, 0 < Cert.Spec.sq x2 W b j) :
    total (fun idx : Sacc.Idx =>
        rowAcc (zhatArr x1 W b) (zhatArr x2 W b) ((16777216 / 13421773 : ℝ) : EReal) p (idx 0)) ((128 : ℝ) : EReal)
      = ∑ i : Fin 8192, ∑ j : Fin 8192, simR x1 x2 W b ((13421773 / 16777216 : ℝ) : EReal) i j * p (ix2 i j) := by
  rw [total_lanes (rowAcc (zhatArr x1 W b) (zhatArr x2 W b) ((16777216 / 13421773 : ℝ) : EReal) p)
    (isReal_rowAcc x1 x2 p W b hx1 hx2 hp hW hb hn1 hn2)]
  exact Finset.sum_congr rfl (fun i _ => rowAcc_eq x1 x2 p W b hx1 hx2 hW hb hn1 hn2 i)

end Cert.Bridge

end
-- ==== Proof.Bridge.lean ====
/-
  The bridge between the two computations.

  With real inputs and rows of positive sums of squares, the kernel's similarity of the normalised rows is the
  reference's similarity of the rows themselves, so each of the kernel's row accumulators is the reference's row sum,
  a real; the 128 equal lanes, summed and divided by 128, give back the sum over the rows.  Hence the kernel's two totals
  are P = sum_i sum_j s_ij p_ij and N = sum_i sum_j s_ij q_ij, and P + N is the reference's sum of s_ij p_ij + s_ij q_ij
  term by term.  Both results are then minus the logarithm of the SAME quotient P / (P + N): nothing has to be known
  about the logarithm, about a division by zero or about the sign of P + N.
-/
import proofs.«150668_j60876866454165_2_alg».proof.Proof.BridgeConsts
import proofs.«150668_j60876866454165_2_alg».proof.Proof.BridgeTotal

noncomputable section

open scoped BigOperators

namespace Cert.Bridge

open Cert.Spec Cert.RealEntries Idealize.ShloMosaic Idealize.ShloMosaic.ValueIdx

/-- The kernel's result, computed from the normalised rows through 128-lane accumulators with the constant
    2^24 / 13421773, is the reference's result at the temperature 13421773 / 2^24, for real inputs whose activated
    rows all have positive sums of squares. -/
theorem result_eq (x1 x2 : Sx.Idx → EReal) (p q : Sm.Idx → EReal) (W : Sw.Idx → EReal) (b : Fin 512 → EReal)
    (hx1 : ∀ idx, IsReal (x1 idx)) (hx2 : ∀ idx, IsReal (x2 idx)) (hp : ∀ idx, IsReal (p idx)) (hq : ∀ idx, IsReal (q idx))
    (hW : ∀ idx, IsReal (W idx)) (hb : ∀ k, IsReal (b k))
    (hn1 : ∀ i, 0 < Cert.Spec.sq x1 W b i) (hn2 : ∀ j, 0 < Cert.Spec.sq x2 W b j) :
    kernelResult
        (fun idx => rowAcc (zhatArr x1 W b) (zhatArr x2 W b) ((16777216 / 13421773 : ℝ) : EReal) p (idx 0))
        (fun idx => rowAcc (zhatArr x1 W b) (zhatArr x2 W b) ((16777216 / 13421773 : ℝ) : EReal) q (idx 0))
        (Ideal.ofBits .f32 0x43000000#32)
      = refResult x1 x2 p q W b (Ideal.ofBits .f32 0x3F4CCCCD#32) := by
  unfold kernelResult refResult
  rw [ofBits_128, ofBits_tau, total_rowAcc x1 x2 p W b hx1 hx2 hp hW hb hn1 hn2,
    total_rowAcc x1 x2 q W b hx1 hx2 hq hW hb hn1 hn2, ← Finset.sum_add_distrib]
  have hadd : ∀ i : Fin 8192,
      (∑ j : Fin 8192, simR x1 x2 W b ((13421773 / 16777216 : ℝ) : EReal) i j * p (ix2 i j))
        + (∑ j : Fin 8192, simR x1 x2 W b ((13421773 / 16777216 : ℝ) : EReal) i j * q (ix2 i j))
      = ∑ j : Fin 8192, (simR x1 x2 W b ((13421773 / 16777216 : ℝ) : EReal) i j * p (ix2 i j)
          + simR x1 x2 W b ((13421773 / 16777216 : ℝ) : EReal) i j * q (ix2 i j)) :=
    fun i => Finset.sum_add_distrib.symm
  rw [Finset.sum_congr rfl (fun i _ => hadd i)]

end Cert.Bridge

end
-- ==== Proof.lean ====
/-
  The certificate's five claims.

  The kernel computes a contrastive ratio in two stages and a host tail: it projects two views through a shared linear
  layer and ELU and normalises every row; it exponentiates the cosine of every pair of rows times a scale constant and
  sums the result against two masks; it returns -log (P / (P + N)). The reference computes the same quantity with the
  normalisation outside the dot product and the temperature as a divisor. At the ideal instance the scale constant is
  named the reciprocal of the reference's temperature word, and for inputs that are finite and whose projected rows are
  not entirely zero (so that every norm the reference divides by is positive) the two results are the same extended real:
  the dot product of two normalised rows is the dot product over the product of the norms, the 128 equal lanes of the
  accumulators sum to 128 times the row sums, and both programs then form -log (P / (P + N)) of the same P and N.
  The three frames are the generated frame certificates of the two kernel programs and the reference's run with its
  result dropped; the ledger's one entry is the named constant's statement.
-/
import proofs.«150668_j60876866454165_2_alg».proof.Defs
import proofs.«150668_j60876866454165_2_alg».proof.Proof.Gen.Kernel
import proofs.«150668_j60876866454165_2_alg».proof.Proof.Gen.Kernel.Frame
import proofs.«150668_j60876866454165_2_alg».proof.Proof.Gen.KernelIdeal
import proofs.«150668_j60876866454165_2_alg».proof.Proof.Gen.KernelIdeal.Frame
import proofs.«150668_j60876866454165_2_alg».proof.Proof.Gen.ReferenceIdeal
import proofs.«150668_j60876866454165_2_alg».proof.Proof.Gen.Pre_finite_inputs
import proofs.«150668_j60876866454165_2_alg».proof.Proof.KernelValue
import proofs.«150668_j60876866454165_2_alg».proof.Proof.RefRead
import proofs.«150668_j60876866454165_2_alg».proof.Proof.PreFacts
import proofs.«150668_j60876866454165_2_alg».proof.Proof.Bridge
import Idealize.ShloMosaic.PureOps.IdealRules
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The ledger's one entry: the certificate's table gives the scale constant's name the reciprocal of the reference's
    temperature word, and the printed constant is that value at the ideal instance. -/
theorem preserves : Cert.preserves_Kernel_KernelIdeal :=
  IdealRules.named_const.statement Cert.KernelIdeal.κ "inv_tau" .f32 0x3FA00000#32 ((16777216 / 13421773 : ℝ) : EReal) rfl

/-- Both idealized programs, from memories agreeing on the arguments, end at the same extended real. -/
theorem algebraic : Cert.algebraic_KernelIdeal_ReferenceIdeal := by
  intro m ρ m' ρ' hpre hagree
  refine ⟨fun c => fun _ => Cert.KernelIdeal.Value.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (fun k => m ((c.tc : Thread Cert.KernelIdeal.nD Cert.KernelIdeal.τ).loc Cert.KernelIdeal.main_arg5) (ix1 k)),
    Cert.KernelIdeal.Value.run m ρ, ?_⟩
  refine (θ_run Cert.ReferenceIdeal.defs _ _).mono (fun _ h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2]
  obtain ⟨h0, h1, h2, h3, h4, h5, hr1, hr2⟩ := Cert.PreFacts.of_pre _ _ _ _ _ _ (hpre c)
  have hb : ∀ k : Fin 512, Cert.RealEntries.IsReal (m ((c.tc : Thread Cert.KernelIdeal.nD Cert.KernelIdeal.τ).loc Cert.KernelIdeal.main_arg5) (ix1 k)) :=
    fun k => h5 (ix1 k)
  funext _
  exact (Cert.Bridge.result_eq _ _ _ _ _ _ h0 h1 h2 h3 h4 hb
    (fun i => Cert.Bridge.sq_pos_of_lin _ _ _ h0 h4 hb i (hr1 i))
    (fun j => Cert.Bridge.sq_pos_of_lin _ _ _ h1 h4 hb j (hr2 j))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
